-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x5 : Shape := ⟨2, ![128, 5]⟩
abbrev S5 : Shape := ⟨1, ![5]⟩
abbrev S5x16 : Shape := ⟨2, ![5, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_
  bcast_S_S5x16 : S_.BroadcastsInDim S5x16 (![] : Fin 0 → Fin S5x16.rank)
  reducesTo_S5x16_S_d0_1 : S5x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S5x16 1) : IVec S_ 1 :=
  let main_c_5 : IVec S_ 1 := constantI S_ 1 1#1
  let main_v17 : IVec S_ 1 := (fun x v => Host.reduce IntOp.andi x v reducesTo_S5x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x5 .f32) (main_arg3 : FVec F S5 .f32) (main_arg4 : FVec F S5x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x5 .f32 := Host.absf main_arg2
  let main_cst_0 : FVec F S_ .f32 := constant S_ .f32 0x7F800000#32
  let main_v5 : FVec F S128x5 .f32 := broadcastInDim S128x5 ![] bcast_S_S128x5 main_cst_0
  let main_v6 : IVec S128x5 1 := cmpf .olt main_v4 main_v5
  let main_c_1 : IVec S_ 1 := constantI S_ 1 1#1
  let main_v7 : IVec S_ 1 := (fun x v => Host.reduce IntOp.andi x v reducesTo_S128x5_S_d0_1 h_S_) main_v6 main_c_1
  let main_v8 : IVec S_ 1 := andi main_v3 main_v7
  let main_v9 : FVec F S5 .f32 := Host.absf main_arg3
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S5x16 .f32 := Host.absf main_arg4
  let main_cst_4 : FVec F S_ .f32 := constant S_ .f32 0x7F800000#32
  let main_v15 : FVec F S5x16 .f32 := broadcastInDim S5x16 ![] bcast_S_S5x16 main_cst_4
  let main_v16 : IVec S5x16 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x5 : Shape := ⟨2, ![128, 5]⟩
abbrev S5 : Shape := ⟨1, ![5]⟩
abbrev S5x16 : Shape := ⟨2, ![5, 16]⟩
abbrev S16 : Shape := ⟨1, ![16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x5 : Shape := ⟨2, ![100000, 5]⟩
abbrev S10000x128 : Shape := ⟨2, ![10000, 128]⟩
abbrev S10000x5 : Shape := ⟨2, ![10000, 5]⟩
abbrev S3300000x5 : Shape := ⟨2, ![3300000, 5]⟩
abbrev S1x5 : Shape := ⟨2, ![1, 5]⟩
abbrev S100000x16 : Shape := ⟨2, ![100000, 16]⟩
abbrev S10000x16 : Shape := ⟨2, ![10000, 16]⟩
abbrev S3300000x16 : Shape := ⟨2, ![3300000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x5, .f32⟩
  | .hbm, ⟨3, _⟩ => ⟨S5, .f32⟩
  | .hbm, ⟨4, _⟩ => ⟨S5x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x5, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x5, .f32⟩
  | .hbm, ⟨56, _⟩ => ⟨S3300000x1, .f32⟩
  | .hbm, ⟨57, _⟩ => ⟨S3300000x5, .f32⟩
  | .hbm, ⟨58, _⟩ => ⟨S3300000x5, .f32⟩
  | .hbm, ⟨59, _⟩ => ⟨S_, .f32⟩
  | .hbm, ⟨60, _⟩ => ⟨S100000x5, .f32⟩
  | .hbm, ⟨61, _⟩ => ⟨S3300000x1, .i32⟩
  | .hbm, ⟨62, _⟩ => ⟨S100000x5, .f32⟩
  | .hbm, ⟨63, _⟩ => ⟨S1x5, .f32⟩
  | .hbm, ⟨64, _⟩ => ⟨S100000x5, .f32⟩
  | .hbm, ⟨65, _⟩ => ⟨S100000x16, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x16, .f32⟩
  | .hbm, ⟨75, _⟩ => ⟨S3300000x1, .f32⟩
  | .hbm, ⟨76, _⟩ => ⟨S3300000x16, .f32⟩
  | .hbm, ⟨77, _⟩ => ⟨S3300000x16, .f32⟩
  | .hbm, ⟨78, _⟩ => ⟨S_, .f32⟩
  | .hbm, ⟨79, _⟩ => ⟨S100000x16, .f32⟩
  | .hbm, ⟨80, _⟩ => ⟨S3300000x1, .i32⟩
  | .hbm, ⟨81, _⟩ => ⟨S100000x16, .f32⟩
  | .hbm, ⟨82, _⟩ => ⟨S1x16, .f32⟩
  | .hbm, ⟨83, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x5, .f32⟩
  | .local _ .vmem, ⟨3, _⟩ => ⟨S10000x5, .f32⟩
  | .local _ .vmem, ⟨4, _⟩ => ⟨S10000x5, .f32⟩
  | .local _ .vmem, ⟨5, _⟩ => ⟨S10000x5, .f32⟩
  | .local _ .vmem, ⟨6, _⟩ => ⟨S10000x5, .f32⟩
  | .local _ .vmem, ⟨7, _⟩ => ⟨S1x5, .f32⟩
  | .local _ .vmem, ⟨8, _⟩ => ⟨S10000x5, .f32⟩
  | .local _ .vmem, ⟨9, _⟩ => ⟨S10000x5, .f32⟩
  | .local _ .vmem, ⟨10, _⟩ => ⟨S10000x5, .f32⟩
  | .local _ .vmem, ⟨11, _⟩ => ⟨S10000x5, .f32⟩
  | .local _ .vmem, ⟨12, _⟩ => ⟨S5x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S1x16, .f32⟩
  | .local _ .vmem, ⟨18, _⟩ => ⟨S10000x16, .f32⟩
  | .local _ .vmem, ⟨19, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x5 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x5 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x5 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S5x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x5_S128x5_0_0 : ∀ a, (![0, 0] : Fin 2 → Nat) a + S128x5.size a ≤ S128x5.size a
  h_S128x5 : 0 < S128x5.numel
  inb_S10000x5_S10000x5_0_0 : ∀ a, (![0, 0] : Fin 2 → Nat) a + S10000x5.size a ≤ S10000x5.size a
  h_S10000x5 : 0 < S10000x5.numel
  bcast_S3300000x1_S3300000x5_0_1 : S3300000x1.BroadcastsInDim S3300000x5 (![0, 1] : Fin 2 → Fin S3300000x5.rank)
  bcast_S_S100000x5 : S_.BroadcastsInDim S100000x5 (![] : Fin 0 → Fin S100000x5.rank)
  shapeCasts_S5_S1x5 : S5.ShapeCasts S1x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  shapeCasts_S10000x5_S10000x5 : S10000x5.ShapeCasts S10000x5
  inb_S5x16_S5x16_0_0 : ∀ a, (![0, 0] : Fin 2 → Nat) a + S5x16.size a ≤ S5x16.size a
  h_S5x16 : 0 < S5x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  shapeCasts_S10000x16_S10000x16 : S10000x16.ShapeCasts S10000x16
  reduces_S10000x16_S10000 : S10000x16.Reduces [1] S10000
  shapeCasts_S10000_S10000x1 : S10000.ShapeCasts S10000x1
  broadcasts_S10000x1_S10000x16 : S10000x1.Broadcasts S10000x16
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x5_S10000x5_1_0_0_1_n_n_wf : DotDims.WF S10000x128 S128x5 S10000x5 [1] [0] [0] [1] [] []
  gather_S100000x5_S3300000x1_S3300000x5_1_0_n_n_0_1_15_wf : GatherDims.WF S100000x5 S3300000x1 S3300000x5 [1] [0] [] [0] [] 1 ![1, 5]
  scatter_S100000x5_S3300000x1_S3300000x5_1_0_0_1_wf : ScatterDims.WF S100000x5 S3300000x1 S3300000x5 [1] [0] [0] 1
  dot_S10000x5_S5x16_S10000x16_1_0_0_1_n_n_wf : DotDims.WF S10000x5 S5x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x5.size a ≤ S128x5.size a
  hwx0_1 : ∀ i : grid0.Coords, EltTy.bits .f32 = 32 ∨ (Rect.block (s := S128x5) S128x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x5.size a ≤ S100000x5.size a
  hwx0_2 : ∀ i : grid0.Coords, EltTy.bits .f32 = 32 ∨ (Rect.block (s := S100000x5) S10000x5.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x5.size a ≤ S100000x5.size a
  hwx1_0 : ∀ i : grid1.Coords, EltTy.bits .f32 = 32 ∨ (Rect.block (s := S100000x5) S10000x5.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x5.size a ≤ S1x5.size a
  hwx1_1 : ∀ i : grid1.Coords, EltTy.bits .f32 = 32 ∨ (Rect.block (s := S1x5) S1x5.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x5.size a ≤ S100000x5.size a
  hwx1_2 : ∀ i : grid1.Coords, EltTy.bits .f32 = 32 ∨ (Rect.block (s := S100000x5) S10000x5.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x5.size a ≤ S100000x5.size a
  hwx2_0 : ∀ i : grid2.Coords, EltTy.bits .f32 = 32 ∨ (Rect.block (s := S100000x5) S10000x5.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S5x16.size a ≤ S5x16.size a
  hwx2_1 : ∀ i : grid2.Coords, EltTy.bits .f32 = 32 ∨ (Rect.block (s := S5x16) S5x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S100000x16.size a
  hwx3_2 : ∀ i : grid3.Coords, EltTy.bits .f32 = 32 ∨ (Rect.block (s := S100000x16) S10000x16.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x5_S10000x5_1_0_0_1_n_n : DotDims S10000x128 S128x5 S10000x5 where
  lhsContracting := [1]
  rhsContracting := [0]
  lhsNonContracting := [0]
  rhsNonContracting := [1]
  lhsBatch := []
  rhsBatch := []
  wf := dot_S10000x128_S128x5_S10000x5_1_0_0_1_n_n_wf
def gather_S100000x5_S3300000x1_S3300000x5_1_0_n_n_0_1_15 : GatherDims S100000x5 S3300000x1 S3300000x5 where
  offsetDims := [1]
  collapsedSliceDims := [0]
  operandBatchingDims := []
  startIndicesBatchingDims := []
  startIndexMap := [0]
  indexVectorDim := 1
  sliceSizes := ![1, 5]
  wf := gather_S100000x5_S3300000x1_S3300000x5_1_0_n_n_0_1_15_wf
def scatter_S100000x5_S3300000x1_S3300000x5_1_0_0_1 : ScatterDims S100000x5 S3300000x1 S3300000x5 where
  updateWindowDims := [1]
  insertedWindowDims := [0]
  scatterDimsToOperandDims := [0]
  indexVectorDim := 1
  wf := scatter_S100000x5_S3300000x1_S3300000x5_1_0_0_1_wf
def dot_S10000x5_S5x16_S10000x16_1_0_0_1_n_n : DotDims S10000x5 S5x16 S10000x16 where
  lhsContracting := [1]
  rhsContracting := [0]
  lhsNonContracting := [0]
  rhsNonContracting := [1]
  lhsBatch := []
  rhsBatch := []
  wf := dot_S10000x5_S5x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x5.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x5.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x5.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S5x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x5 : Shape := ⟨2, ![128, 5]⟩
abbrev S5 : Shape := ⟨1, ![5]⟩
abbrev S5x16 : Shape := ⟨2, ![5, 16]⟩
abbrev S16 : Shape := ⟨1, ![16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x5 : Shape := ⟨2, ![100000, 5]⟩
abbrev S3300000x5 : Shape := ⟨2, ![3300000, 5]⟩
abbrev S1x5 : Shape := ⟨2, ![1, 5]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S2x3200000, .i32⟩
  | 2 => ⟨S128x5, .f32⟩
  | 3 => ⟨S5, .f32⟩
  | 4 => ⟨S5x16, .f32⟩
  | 5 => ⟨S16, .f32⟩
  | 6 => ⟨S1x3200000, .i32⟩
  | 7 => ⟨S3200000, .i32⟩
  | 8 => ⟨S1x3200000, .i32⟩
  | 9 => ⟨S3200000, .i32⟩
  | 10 => ⟨S100000, .i32⟩
  | 11 => ⟨S3300000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x5, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x5, .f32⟩
  | 56 => ⟨S3300000x1, .f32⟩
  | 57 => ⟨S3300000x5, .f32⟩
  | 58 => ⟨S3300000x5, .f32⟩
  | 59 => ⟨S_, .f32⟩
  | 60 => ⟨S100000x5, .f32⟩
  | 61 => ⟨S3300000x1, .i32⟩
  | 62 => ⟨S100000x5, .f32⟩
  | 63 => ⟨S1x5, .f32⟩
  | 64 => ⟨S100000x5, .f32⟩
  | 65 => ⟨S100000x5, .f32⟩
  | 66 => ⟨S_, .f32⟩
  | 67 => ⟨S100000x5, .f32⟩
  | 68 => ⟨S100000x5, .f32⟩
  | 69 => ⟨S1x3200000, .i32⟩
  | 70 => ⟨S3200000, .i32⟩
  | 71 => ⟨S1x3200000, .i32⟩
  | 72 => ⟨S3200000, .i32⟩
  | 73 => ⟨S100000, .i32⟩
  | 74 => ⟨S3300000, .i32⟩
  | 75 => ⟨S3300000, .i32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S100000x16, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x16, .f32⟩
  | 119 => ⟨S3300000x1, .f32⟩
  | 120 => ⟨S3300000x16, .f32⟩
  | 121 => ⟨S3300000x16, .f32⟩
  | 122 => ⟨S_, .f32⟩
  | 123 => ⟨S100000x16, .f32⟩
  | 124 => ⟨S3300000x1, .i32⟩
  | 125 => ⟨S100000x16, .f32⟩
  | 126 => ⟨S1x16, .f32⟩
  | 127 => ⟨S100000x16, .f32⟩
  | _ => ⟨S100000x128, .f32⟩

abbrev hbmTy0_1 (i : Nat) : BufTy := match i % 128 with
  | 0 => ⟨S100000x16, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x16, .f32⟩
  | 8 => ⟨S100000x16, .f32⟩
  | 9 => ⟨S100000x16, .f32⟩
  | 10 => ⟨S_, .f32⟩
  | 11 => ⟨S100000, .f32⟩
  | 12 => ⟨S100000x1, .f32⟩
  | 13 => ⟨S100000x1, .f32⟩
  | 14 => ⟨S100000x16, .f32⟩
  | 15 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x5_0_1 : S3300000x1.BroadcastsInDim S3300000x5 (![0, 1] : Fin 2 → Fin S3300000x5.rank)
  bcast_S_S100000x5 : S_.BroadcastsInDim S100000x5 (![] : Fin 0 → Fin S100000x5.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x5_S100000x5_1_0_0_1_n_n_wf : DotDims.WF S100000x128 S128x5 S100000x5 [1] [0] [0] [1] [] []
  gather_S100000x5_S3300000x1_S3300000x5_1_0_n_n_0_1_15_wf : GatherDims.WF S100000x5 S3300000x1 S3300000x5 [1] [0] [] [0] [] 1 ![1, 5]
  scatter_S100000x5_S3300000x1_S3300000x5_1_0_0_1_wf : ScatterDims.WF S100000x5 S3300000x1 S3300000x5 [1] [0] [0] 1
  dot_S100000x5_S5x16_S100000x16_1_0_0_1_n_n_wf : DotDims.WF S100000x5 S5x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x5_S100000x5_1_0_0_1_n_n : DotDims S100000x128 S128x5 S100000x5 where
  lhsContracting := [1]
  rhsContracting := [0]
  lhsNonContracting := [0]
  rhsNonContracting := [1]
  lhsBatch := []
  rhsBatch := []
  wf := dot_S100000x128_S128x5_S100000x5_1_0_0_1_n_n_wf
def gather_S100000x5_S3300000x1_S3300000x5_1_0_n_n_0_1_15 : GatherDims S100000x5 S3300000x1 S3300000x5 where
  offsetDims := [1]
  collapsedSliceDims := [0]
  operandBatchingDims := []
  startIndicesBatchingDims := []
  startIndexMap := [0]
  indexVectorDim := 1
  sliceSizes := ![1, 5]
  wf := gather_S100000x5_S3300000x1_S3300000x5_1_0_n_n_0_1_15_wf
def scatter_S100000x5_S3300000x1_S3300000x5_1_0_0_1 : ScatterDims S100000x5 S3300000x1 S3300000x5 where
  updateWindowDims := [1]
  insertedWindowDims := [0]
  scatterDimsToOperandDims := [0]
  indexVectorDim := 1
  wf := scatter_S100000x5_S3300000x1_S3300000x5_1_0_0_1_wf
def dot_S100000x5_S5x16_S100000x16_1_0_0_1_n_n : DotDims S100000x5 S5x16 S100000x16 where
  lhsContracting := [1]
  rhsContracting := [0]
  lhsNonContracting := [0]
  rhsNonContracting := [1]
  lhsBatch := []
  rhsBatch := []
  wf := dot_S100000x5_S5x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.KernelRun.lean ====
/-
  The kernel's run with its result named.

  @main is nine segments: three stretches of host operations (the edge lists and the edge weights), the first grid
  region, a stretch (the first aggregation), the second and third regions, a stretch (the second aggregation) and
  the last region. The contents of the TensorCore's buffers at the nine segment boundaries are a fold from the launch
  memory, `W0 … W9`: a host stretch applies its operations, a region replaces its three arrays by what its write-backs
  leave. Every weakly fair execution terminates with every unscoped buffer at the last boundary's contents `W9`; read
  at the result buffer and at the six arguments this is the statement below — the result still as `W9` at its
  buffer, which the later modules evaluate stage by stage.
-/
import proofs.«127188_j1589137899719_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting, with the
    result buffer at the last boundary's contents and the six argument arrays as launched. -/
theorem run_named : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.NamedRun

end
-- ==== Proof.Spec.lean ====
/-
  A two-layer graph convolution, stage by stage, as whole-array functions.

  The graph has 100000 nodes and 3200000 given edges; every node also gets a loop edge, so an edge list has
  3300000 entries. With `deg v` the number of listed edges ending at `v` and `w e = deg(src e)^(-1/2) · deg(tgt e)^(-1/2)`,
  one layer sends node features `h` to `v ↦ ∑_{e : tgt e = v} w e · (h · W)[src e] + b`. The first layer is followed by
  `max(·, 0)`, the second by the row-wise `z ↦ (z - max z) - log ∑ exp (z - max z)`.

  Each stage below is written with the host operations the reference program itself uses, over the reference's
  shapes, so that the reference's result is their composition on the nose; the kernel's four grid regions are then
  shown, one by one, to compute the four stages `transform1`, `biasRelu`, `transform2`, `biasLogSoftmax`.
-/
import proofs.«127188_j1589137899719_1_alg».proof.ReferenceIdeal
import proofs.«127188_j1589137899719_1_alg».proof.Proof.Gen.ReferenceIdeal
import Idealize.ShloMosaic.PureOps.Ideal

noncomputable section

namespace Cert.Gcn

open Cert.ReferenceIdeal Cert.ReferenceIdeal.Gen Idealize.ShloMosaic

variable {F : FTy → Type} [FloatOps F]

/-! ## The edge lists -/

/-- Row `r` of the edge array followed by the loop edges `0, 1, …, 99999`. -/
def sources (ei : (⟨S2x3200000, .i32⟩ : BufTy).Contents (Elt F)) : (⟨S3300000, .i32⟩ : BufTy).Contents (Elt F) :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

def targets (ei : (⟨S2x3200000, .i32⟩ : BufTy).Contents (Elt F)) : (⟨S3300000, .i32⟩ : BufTy).Contents (Elt F) :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- A negative node number counts from the end: `i ↦ if i < 0 then i + 100000 else i`. -/
def wrapNeg (idx : (⟨S3300000, .i32⟩ : BufTy).Contents (Elt F)) : (⟨S3300000, .i32⟩ : BufTy).Contents (Elt F) :=
  select (cmpi .slt idx (broadcastInDim S3300000 ![] bcast_S_S3300000 (constantI S_ 32 0#32)))
    (addi idx (broadcastInDim S3300000 ![] bcast_S_S3300000 (constantI S_ 32 100000#32))) idx

/-! ## The normalisation -/

/-- `deg v`: the number of listed edges ending at `v`, as a float sum of ones. -/
def degree (tgt : (⟨S3300000, .i32⟩ : BufTy).Contents (Elt F)) : FVec F S100000 .f32 :=
  Host.scatterAdd scatter_S100000_S3300000x1_S3300000_n_0_0_1 (broadcastInDim S100000 ![] bcast_S_S100000 (constant S_ .f32 0x00000000#32))
    (broadcastInDim S3300000x1 ![0] bcast_S3300000_S3300000x1_0 tgt) (broadcastInDim S3300000 ![] bcast_S_S3300000 (constant S_ .f32 0x3F800000#32))

/-- `deg v ^ (-1/2)` where the degree is positive, `0` elsewhere. -/
def invSqrtDegree (tgt : (⟨S3300000, .i32⟩ : BufTy).Contents (Elt F)) : FVec F S100000 .f32 :=
  select (cmpf (F := F) .ogt (degree (F := F) tgt) (broadcastInDim S100000 ![] bcast_S_S100000 (constant S_ .f32 0x00000000#32)))
    (Host.rsqrt (degree (F := F) tgt)) (broadcastInDim S100000 ![] bcast_S_S100000 (id (constant S_ .f32 0x00000000#32)))

/-- The weight of edge `e`: `deg(src e)^(-1/2) · deg(tgt e)^(-1/2)`. -/
def edgeWeight (src tgt : (⟨S3300000, .i32⟩ : BufTy).Contents (Elt F)) : FVec F S3300000 .f32 :=
  mulf (Host.gather gather_S100000_S3300000x1_S3300000_n_0_n_n_0_1_1 (invSqrtDegree (F := F) tgt) (broadcastInDim S3300000x1 ![0] bcast_S3300000_S3300000x1_0 (wrapNeg (F := F) src)))
    (Host.gather gather_S100000_S3300000x1_S3300000_n_0_n_n_0_1_1 (invSqrtDegree (F := F) tgt) (broadcastInDim S3300000x1 ![0] bcast_S3300000_S3300000x1_0 (wrapNeg (F := F) tgt)))

/-! ## Aggregation along the edges -/

/-- `v ↦ ∑_{e : tgt e = v} w e · h[src e]` for five features per node. -/
def aggregate5 (h : FVec F S100000x5 .f32) (src tgt : (⟨S3300000, .i32⟩ : BufTy).Contents (Elt F)) (w : FVec F S3300000 .f32) : FVec F S100000x5 .f32 :=
  Host.scatterAdd scatter_S100000x5_S3300000x1_S3300000x5_1_0_0_1 (broadcastInDim S100000x5 ![] bcast_S_S100000x5 (constant S_ .f32 0x00000000#32))
    (broadcastInDim S3300000x1 ![0] bcast_S3300000_S3300000x1_0 tgt)
    (mulf (Host.gather gather_S100000x5_S3300000x1_S3300000x5_1_0_n_n_0_1_15 h (broadcastInDim S3300000x1 ![0] bcast_S3300000_S3300000x1_0 (wrapNeg (F := F) src)))
      (broadcastInDim S3300000x5 ![0, 1] bcast_S3300000x1_S3300000x5_0_1 (broadcastInDim S3300000x1 ![0] bcast_S3300000_S3300000x1_0 w)))

/-- The same for sixteen features per node. -/
def aggregate16 (h : FVec F S100000x16 .f32) (src tgt : (⟨S3300000, .i32⟩ : BufTy).Contents (Elt F)) (w : FVec F S3300000 .f32) : FVec F S100000x16 .f32 :=
  Host.scatterAdd scatter_S100000x16_S3300000x1_S3300000x16_1_0_0_1 (broadcastInDim S100000x16 ![] bcast_S_S100000x16 (constant S_ .f32 0x00000000#32))
    (broadcastInDim S3300000x1 ![0] bcast_S3300000_S3300000x1_0 tgt)
    (mulf (Host.gather gather_S100000x16_S3300000x1_S3300000x16_1_0_n_n_0_1_116 h (broadcastInDim S3300000x1 ![0] bcast_S3300000_S3300000x1_0 (wrapNeg (F := F) src)))
      (broadcastInDim S3300000x16 ![0, 1] bcast_S3300000x1_S3300000x16_0_1 (broadcastInDim S3300000x1 ![0] bcast_S3300000_S3300000x1_0 w)))

/-! ## The four dense stages (one grid region of the kernel each) -/

/-- `x · W₁`: 128 input features to 5. -/
def transform1 (x : FVec F S100000x128 .f32) (w : FVec F S128x5 .f32) : FVec F S100000x5 .f32 :=
  Host.dotGeneral dot_S100000x128_S128x5_S100000x5_1_0_0_1_n_n none x w

/-- `max(a + b, 0)`, the bias given as a one-row array. -/
def biasRelu (a : FVec F S100000x5 .f32) (brow : FVec F S1x5 .f32) : FVec F S100000x5 .f32 :=
  maximumf (addf a (broadcastInDim S100000x5 ![0, 1] bcast_S1x5_S100000x5_0_1 brow))
    (broadcastInDim S100000x5 ![] bcast_S_S100000x5 (constant S_ .f32 0x00000000#32))

/-- `h · W₂`: 5 features to 16. -/
def transform2 (h : FVec F S100000x5 .f32) (w : FVec F S5x16 .f32) : FVec F S100000x16 .f32 :=
  Host.dotGeneral dot_S100000x5_S5x16_S100000x16_1_0_0_1_n_n none h w

/-- A row's maximum (the fold of `max` from `-∞`, joined once more with `-∞`). -/
def rowMax (z : FVec F S100000x16 .f32) : FVec F S100000 .f32 :=
  maximumf (broadcastInDim S100000 ![] bcast_S_S100000 (constant S_ .f32 0xFF800000#32))
    (Host.reduce FloatOps.maximumf z (constant S_ .f32 0xFF800000#32) reducesTo_S100000x16_S100000_d1 h_S_)

/-- `z - max z`, row by row. -/
def shifted (z : FVec F S100000x16 .f32) : FVec F S100000x16 .f32 :=
  subf z (broadcastInDim S100000x16 ![0, 1] bcast_S100000x1_S100000x16_0_1 (broadcastInDim S100000x1 ![0] bcast_S100000_S100000x1_0 (rowMax (F := F) z)))

/-- `(z - max z) - log ∑ exp (z - max z)`, row by row. -/
def logSoftmaxRows (z : FVec F S100000x16 .f32) : FVec F S100000x16 .f32 :=
  subf (shifted (F := F) z) (broadcastInDim S100000x16 ![0, 1] bcast_S100000x1_S100000x16_0_1
    (Host.log (broadcastInDim S100000x1 ![0] bcast_S100000_S100000x1_0
      (Host.reduceAdd (Host.exp (shifted (F := F) z)) (constant S_ .f32 0x00000000#32) reducesTo_S100000x16_S100000_d1 h_S_))))

/-- The last stage: add the bias row, then the row-wise log-softmax. -/
def biasLogSoftmax (a : FVec F S100000x16 .f32) (brow : FVec F S1x16 .f32) : FVec F S100000x16 .f32 :=
  logSoftmaxRows (F := F) (addf a (broadcastInDim S100000x16 ![0, 1] bcast_S1x16_S100000x16_0_1 brow))

/-! ## The network -/

/-- The whole network as one function of the six arguments. -/
def network (x : FVec F S100000x128 .f32) (ei : (⟨S2x3200000, .i32⟩ : BufTy).Contents (Elt F)) (w1 : FVec F S128x5 .f32) (b1 : FVec F S5 .f32)
    (w2 : FVec F S5x16 .f32) (b2 : FVec F S16 .f32) : FVec F S100000x16 .f32 :=
  biasLogSoftmax (F := F)
    (aggregate16 (F := F)
      (transform2 (F := F)
        (biasRelu (F := F)
          (aggregate5 (F := F) (transform1 (F := F) x w1) (sources (F := F) ei) (targets (F := F) ei) (edgeWeight (F := F) (sources (F := F) ei) (targets (F := F) ei)))
          (broadcastInDim S1x5 ![1] bcast_S5_S1x5_1 b1))
        w2)
      (sources (F := F) ei) (targets (F := F) ei) (edgeWeight (F := F) (sources (F := F) ei) (targets (F := F) ei)))
    (broadcastInDim S1x16 ![1] bcast_S16_S1x16_1 b2)

end Cert.Gcn

end
-- ==== Proof.HostStages.lean ====
/-
  The kernel's host operations between its grid regions, read stretch by stretch.

  A stretch of host operations turns the buffer contents `W` it starts from into `StableHlo.after ops W`. Read at the
  buffers that later segments use, the three stretches before the first region give the two edge lists (the given
  edges followed by the loop edges) and the edge weights `deg(src)^(-1/2) · deg(tgt)^(-1/2)`; the stretch after the
  first region gathers the transformed features along the sources, scales them by the weights and sums them at the
  targets, and lays the first bias out as a row; the stretch before the last region does the same for the second layer.
  Every statement is about an arbitrary start `W`, so that nothing here depends on what the regions compute.
-/
import proofs.«127188_j1589137899719_1_alg».proof.Proof.Gen.KernelIdeal.Launch
import proofs.«127188_j1589137899719_1_alg».proof.Proof.Spec
import Idealize.ShloMosaic.Lib.StableHlo.Run

set_option maxRecDepth 16384

noncomputable section

namespace Cert.KernelIdeal.HostStages

open Cert.KernelIdeal Cert.KernelIdeal.Gen Idealize.ShloMosaic Idealize.ShloMosaic.TcCoe Idealize.ShloMosaic.StableHlo

variable {F : FTy → Type} [FloatOps F] (W : Valuation τ sig (Elt F))

/-! ## Before the first region: the edge lists and the edge weights -/

/-- The contents after the three stretches that precede the first region. -/
abbrev beforeFirst : Valuation τ sig (Elt F) := after hostOps0_2 (after hostOps0_1 (after hostOps0 W))

theorem sources_beforeFirst :
    beforeFirst W (Proc.devRef .tc main_v5) = Cert.Gcn.sources (F := F) (W (Proc.devRef .tc main_arg1)) := by
  after_results_simp <;> rfl

theorem targets_beforeFirst :
    beforeFirst W (Proc.devRef .tc main_v6) = Cert.Gcn.targets (F := F) (W (Proc.devRef .tc main_arg1)) := by
  after_results_simp <;> rfl

theorem weight_beforeFirst :
    beforeFirst W (Proc.devRef .tc main_v29)
      = Cert.Gcn.edgeWeight (F := F) (Cert.Gcn.sources (F := F) (W (Proc.devRef .tc main_arg1))) (Cert.Gcn.targets (F := F) (W (Proc.devRef .tc main_arg1))) := by
  after_results_simp <;> rfl

/-- The three stretches write none of the six arguments. -/
theorem args_beforeFirst :
    beforeFirst W (Proc.devRef .tc main_arg0) = W (Proc.devRef .tc main_arg0)
    ∧ beforeFirst W (Proc.devRef .tc main_arg2) = W (Proc.devRef .tc main_arg2)
    ∧ beforeFirst W (Proc.devRef .tc main_arg3) = W (Proc.devRef .tc main_arg3)
    ∧ beforeFirst W (Proc.devRef .tc main_arg4) = W (Proc.devRef .tc main_arg4)
    ∧ beforeFirst W (Proc.devRef .tc main_arg5) = W (Proc.devRef .tc main_arg5) := by
  refine ⟨?_, ?_, ?_, ?_, ?_⟩ <;> after_results_simp <;> rfl

/-! ## After the first region: the first aggregation and the first bias as a row -/

theorem aggregate_afterFirst :
    after hostOps1 W (Proc.devRef .tc main_v43)
      = Cert.Gcn.aggregate5 (F := F) (W (Proc.devRef .tc main_v30)) (W (Proc.devRef .tc main_v5)) (W (Proc.devRef .tc main_v6)) (W (Proc.devRef .tc main_v29)) := by
  after_results_simp <;> rfl

theorem biasRow_afterFirst :
    after hostOps1 W (Proc.devRef .tc main_v44) = shapeCast S1x5 (W (Proc.devRef .tc main_arg3)) shapeCasts_S5_S1x5 := by
  after_results_simp <;> rfl

/-- The stretch keeps the edge lists, the weights and the second layer's parameters. -/
theorem kept_afterFirst :
    after hostOps1 W (Proc.devRef .tc main_v5) = W (Proc.devRef .tc main_v5)
    ∧ after hostOps1 W (Proc.devRef .tc main_v6) = W (Proc.devRef .tc main_v6)
    ∧ after hostOps1 W (Proc.devRef .tc main_v29) = W (Proc.devRef .tc main_v29)
    ∧ after hostOps1 W (Proc.devRef .tc main_arg4) = W (Proc.devRef .tc main_arg4)
    ∧ after hostOps1 W (Proc.devRef .tc main_arg5) = W (Proc.devRef .tc main_arg5) := by
  refine ⟨?_, ?_, ?_, ?_, ?_⟩ <;> after_results_simp <;> rfl

/-! ## Before the last region: the second aggregation and the second bias as a row -/

theorem aggregate_beforeLast :
    after hostOps3 W (Proc.devRef .tc main_v59)
      = Cert.Gcn.aggregate16 (F := F) (W (Proc.devRef .tc main_v46)) (W (Proc.devRef .tc main_v5)) (W (Proc.devRef .tc main_v6)) (W (Proc.devRef .tc main_v29)) := by
  after_results_simp <;> rfl

theorem biasRow_beforeLast :
    after hostOps3 W (Proc.devRef .tc main_v60) = shapeCast S1x16 (W (Proc.devRef .tc main_arg5)) shapeCasts_S16_S1x16 := by
  after_results_simp <;> rfl

end Cert.KernelIdeal.HostStages

end
-- ==== Proof.BiasRelu.lean ====
/-
  The second grid region: `max(a + b, 0)` block by block.

  The region walks the 100000 × 5 array `a` in ten blocks of 10000 rows; at point `t` it reads rows
  `10000·t … 10000·t + 9999` of `a` and the whole one-row bias, and writes `max(a + b, 0)` for those rows. An entry of the
  result depends only on the entry of `a` at the same place and on the bias entry of its column, so the ten blocks are
  the restrictions of ONE whole-array function, `Cert.Gcn.biasRelu`, and since the blocks tile the array the region
  leaves exactly that function of its two input arrays.
-/
import proofs.«127188_j1589137899719_1_alg».proof.Proof.Gen.KernelIdeal.Frame
import proofs.«127188_j1589137899719_1_alg».proof.Proof.Spec
import Idealize.ShloMosaic.Lib.Pipeline.Value
import Idealize.ShloMosaic.Lib.ValueIdx
import Idealize.ShloMosaic.Lib.ValueLayout

noncomputable section

namespace Cert.KernelIdeal.BiasReluRegion

open Cert.KernelIdeal Cert.KernelIdeal.Gen Idealize.ShloMosaic Idealize.ShloMosaic.ValueIdx Idealize.ShloMosaic.TcCoe Idealize.SL.Sem

/-! ## One entry, on both sides -/

/-- The body's result at row `p`, column `q` of a block: `max(a[p, q] + b[0, q], 0)`. -/
theorem body_apply (b : Vec Ideal S1x5 .f32) (a : Vec Ideal S10000x5 .f32) (p : Fin 10000) (q : Fin 5) :
    k1_pay1 (F := Ideal) b a (ix2 p q) = max (a (ix2 p q) + b (ix2 (0 : Fin 1) q)) (Ideal.ofBits .f32 0x00000000#32) := by
  unfold k1_pay1
  simp only [shapeCast_self]
  show max (a (ix2 p q) + broadcastTo S10000x5 b broadcasts_S1x5_S10000x5 (ix2 p q)) _ = _
  rw [broadcastTo_1b_ab_apply]
  rfl

/-- The whole-array stage at row `r`, column `q`: `max(A[r, q] + b[0, q], 0)`. -/
theorem stage_apply (A : FVec Ideal Cert.ReferenceIdeal.S100000x5 .f32) (brow : FVec Ideal Cert.ReferenceIdeal.S1x5 .f32) (r : Fin 100000) (q : Fin 5) :
    Cert.Gcn.biasRelu (F := Ideal) A brow (ix2 r q) = max (A (ix2 r q) + brow (ix2 (0 : Fin 1) q)) (Ideal.ofBits .f32 0x00000000#32) := by
  unfold Cert.Gcn.biasRelu
  show max (A (ix2 r q) + broadcastInDim Cert.ReferenceIdeal.S100000x5 ![0, 1] _ brow (ix2 r q))
      (broadcastInDim Cert.ReferenceIdeal.S100000x5 ![] _ (constant (F := Ideal) Cert.ReferenceIdeal.S_ .f32 0x00000000#32) (ix2 r q)) = _
  rw [broadcastInDim_apply ![0, 1] _ brow (ix2 r q) (ix2 (0 : Fin 1) q) (fun ax => by
        match ax with
        | ⟨0, _⟩ => rfl
        | ⟨1, _⟩ => rfl),
    broadcastInDim_apply ![] _ (constant (F := Ideal) Cert.ReferenceIdeal.S_ .f32 0x00000000#32) (ix2 r q) ix0 (fun ax => ax.elim0)]
  rfl

/-- One entry of a block against one entry of the array: if the block entry of `a` is the array entry of `A`, the two
    bias rows agree and the two places are in the same column, the body's result there is the stage's. -/
theorem entry_eq (b : Vec Ideal S1x5 .f32) (a : Vec Ideal S10000x5 .f32)
    (A : FVec Ideal Cert.ReferenceIdeal.S100000x5 .f32) (B : FVec Ideal Cert.ReferenceIdeal.S1x5 .f32)
    (p : Fin 10000) (q : Fin 5) (r : Fin 100000)
    (ha : a (ix2 p q) = A (ix2 r q)) (hb : b (ix2 (0 : Fin 1) q) = B (ix2 (0 : Fin 1) q)) :
    k1_pay1 (F := Ideal) b a (ix2 p q) = Cert.Gcn.biasRelu (F := Ideal) A B (ix2 r q) := by
  rw [body_apply, stage_apply, ha, hb]

/-! ## From the ten blocks to the array -/

section
variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: at point `t` the input and the output are at block row `t`, block column `0`, and
    the bias row at block `(0, 0)`. -/
theorem blockIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `biasRelu` of the two input arrays as the region finds them. -/
theorem flushed_eq (c : Dev nD) (t : Fin cfg1.N) :
    (dat1 V c).flushed 2 t = ((cfg1.win 2).blk t).view.read (Elt Ideal)
      (Cert.Gcn.biasRelu (F := Ideal) (V c (Pipeline.arrRef spec1 0)) (V c (Pipeline.arrRef spec1 1))) := by
  show (cfg1.win 2).cut (grid1.coords t) ((dat1 V c).after 2 t) = _
  rw [after1_2]
  unfold out1_2
  rw [View.canon_unit_zero origin]
  simp only [View.ld_unit_zero (S := S1x5) origin, View.ld_unit_zero (S := S10000x5) origin]
  obtain ⟨e00, e01, e10, e11, e20, e21⟩ := blockIndices t
  funext j
  have hj0 : (j 0).val < 10000 := (j 0).isLt
  have hj1 : (j 1).val < 5 := (j 1).isLt
  have ht : t.val < 10 := lt_of_lt_of_eq (show t.val < grid1.N from t.isLt) N_1
  -- the place of the block entry `j` in the array: row `10000·t + j₀`, column `j₁`
  have hplace : ((cfg1.win 2).blk t).view.emb j
      = ix2 (⟨t.val * 10000 + (j 0).val, by omega⟩ : Fin 100000) (⟨(j 1).val, hj1⟩ : Fin 5) := by
    funext a; apply Fin.ext
    match a with
    | ⟨0, _⟩ => show win1_2.index t (0 : Fin 2) * 10000 + 1 * (j 0).val = t.val * 10000 + (j 0).val; omega
    | ⟨1, _⟩ => show win1_2.index t (1 : Fin 2) * 5 + 1 * (j 1).val = (j 1).val; omega
  show k1_pay1 (F := Ideal) (iblk1 V c 1 t) (iblk1 V c 0 t) j
      = Cert.Gcn.biasRelu (F := Ideal) (V c (Pipeline.arrRef spec1 0)) (V c (Pipeline.arrRef spec1 1)) (((cfg1.win 2).blk t).view.emb j)
  rw [hplace]
  have hj : j = ix2 (⟨(j 0).val, hj0⟩ : Fin 10000) (⟨(j 1).val, hj1⟩ : Fin 5) := eq_ix2 j
  refine (congrArg (k1_pay1 (F := Ideal) (iblk1 V c 1 t) (iblk1 V c 0 t)) hj).trans ?_
  refine entry_eq (iblk1 V c 1 t) (iblk1 V c 0 t) (V c (Pipeline.arrRef spec1 0)) (V c (Pipeline.arrRef spec1 1)) _ _ _ ?_ ?_
  · -- the input block at point `t` is read at the same place of its array
    show V c (Pipeline.arrRef spec1 0) (((cfg1.win 0).blk t).view.emb (ix2 (⟨(j 0).val, hj0⟩ : Fin 10000) (⟨(j 1).val, hj1⟩ : Fin 5))) = _
    refine congrArg (V c (Pipeline.arrRef spec1 0)) (funext fun a => Fin.ext ?_)
    match a with
    | ⟨0, _⟩ => show win1_0.index t (0 : Fin 2) * 10000 + 1 * (j 0).val = t.val * 10000 + (j 0).val; omega
    | ⟨1, _⟩ => show win1_0.index t (1 : Fin 2) * 5 + 1 * (j 1).val = (j 1).val; omega
  · -- the bias window's block is the whole one-row array
    show V c (Pipeline.arrRef spec1 1) (((cfg1.win 1).blk t).view.emb (ix2 (0 : Fin 1) (⟨(j 1).val, hj1⟩ : Fin 5))) = _
    refine congrArg (V c (Pipeline.arrRef spec1 1)) (funext fun a => Fin.ext ?_)
    match a with
    | ⟨0, _⟩ => show win1_1.index t (0 : Fin 2) * 1 + 1 * 0 = 0; omega
    | ⟨1, _⟩ => show win1_1.index t (1 : Fin 2) * 5 + 1 * (j 1).val = (j 1).val; omega

/-- An index of the array is in point `t`'s block iff each coordinate is in the block's range on its axis. -/
theorem mem_block (t : Fin cfg1.N) (i : S100000x5.Idx) :
    i ∈ ((cfg1.win 2).blk t).view.set ↔ ∀ a : Fin 2, win1_2.index t a * S10000x5.size a ≤ (i a).val ∧ (i a).val < win1_2.index t a * S10000x5.size a + S10000x5.size a := by
  show i ∈ ((View.whole main_v45).slice (win1_2.rect t)).set ↔ _
  rw [View.set_slice_whole, Rect.mem_set_unit]
  exact Iff.rfl

/-- The ten blocks tile the array: row `r` is in the block of point `r / 10000`. -/
theorem covered (i : S100000x5.Idx) : ∃ t : Fin cfg1.N, (cfg1.win 2).flush t = true ∧ i ∈ ((cfg1.win 2).blk t).view.set := by
  have hi0 : (i 0).val < 100000 := (i 0).isLt
  have hi1 : (i 1).val < 5 := (i 1).isLt
  let t : Fin cfg1.N := ⟨(i 0).val / 10000, by show _ < grid1.N; rw [N_1]; omega⟩
  have ht : t.val = (i 0).val / 10000 := rfl
  obtain ⟨-, -, -, -, e20, e21⟩ := blockIndices t
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 5 ≤ (i 1).val ∧ (i 1).val < win1_2.index t (1 : Fin 2) * 5 + 5; omega

/-- The array the region leaves: `max(a + b, 0)` of its two input arrays as it finds them. -/
theorem final (c : Dev nD) :
    (dat1 V c).arrAt 2 cfg1.N = Cert.Gcn.biasRelu (F := Ideal) (V c (Pipeline.arrRef spec1 0)) (V c (Pipeline.arrRef spec1 1)) :=
  (dat1 V c).arrAt_eq_of_cover 2 _ (fun t _ => flushed_eq V c t) (covered)

end

end Cert.KernelIdeal.BiasReluRegion

end
-- ==== Proof.LibContract.lean ====
/-
  A matrix product read at one result index.

  At the ideal instance a `tpu.matmul` into a zero accumulator is, at a result index `j`, the sum over the
  contraction index of the left operand times the right operand, each read where the dimension numbers send
  `(j, k)`.  When the contraction runs over a single axis of extent `n` the contraction index is one number
  `k < n`, and the sum becomes a plain sum over `Fin n`.  The lemma below states this once for any dimension
  numbers, the two families of operand indices being supplied by the caller.
-/
import Idealize.ShloMosaic.Lib.ValueIdx
import Idealize.ShloMosaic.PureOps.Ideal.Laws

noncomputable section

namespace Cert.LibContract

open Idealize.ShloMosaic

/-- A product into the zero accumulator, contracted over one axis of extent `n`, at the result index `j`:
    if the dimension numbers send `(j, k)` to the operand indices `li k` and `ri k`, the entry is
    `∑ k < n, lhs (li k) * rhs (ri k)`. -/
theorem matmul_zero_single {sl sr so : Shape} {φ₁ φ₂ : FTy} (d : DotDims sl sr so) (prec : Option ContractPrecision)
    (n : Nat) (hr : d.contr.rank = 1) (hs : d.contr.size ⟨0, by omega⟩ = n)
    (lhs : FVec Ideal sl φ₁) (rhs : FVec Ideal sr φ₂) (j : so.Idx) (li : Fin n → sl.Idx) (ri : Fin n → sr.Idx)
    (hl : ∀ k, d.lhsIdx j ((ValueIdx.contrEquiv1 d n hr hs).symm k) = li k)
    (hrr : ∀ k, d.rhsIdx j ((ValueIdx.contrEquiv1 d n hr hs).symm k) = ri k) :
    matmul d prec lhs rhs (constant so .f32 0x00000000#32) j = ∑ k : Fin n, lhs (li k) * rhs (ri k) := by
  show FloatOps.matmul d prec lhs rhs (constant so .f32 0x00000000#32) j = _
  rw [Ideal.matmul_constant_zero_apply, ← Equiv.sum_comp (ValueIdx.contrEquiv1 d n hr hs).symm]
  exact Finset.sum_congr rfl fun k _ => by rw [hl k, hrr k]

end Cert.LibContract

end
-- ==== Proof.LibPlainDot.lean ====
/-
  A plain matrix product read at one result index.

  For the dimension numbers of an `M × K` by `K × N` product (the left operand contracted on its columns, the right
  on its rows, no batch axis) the host's `dot_general` at the ideal instance is, at the result index `(i, j)`,
  the textbook entry `∑ c < K, l[i, c] · r[c, j]`: the contraction index has one coordinate, and the two operand
  indices at `((i, j), c)` are `(i, c)` and `(c, j)`.
-/
import Idealize.ShloMosaic.Lib.ValueIdx
import Idealize.ShloMosaic.PureOps.Ideal.Laws

noncomputable section

open scoped BigOperators

namespace Cert.LibPlainDot

open Idealize.ShloMosaic Idealize.ShloMosaic.ValueIdx

/-- The left operand's index at result index `(i, j)` and contraction coordinate `c` is `(i, c)`. -/
theorem plain_lhsIdx {M K N : ℕ} (i : Fin M) (j : Fin N) (c : Fin K) :
    (DotDims.plain M K N).lhsIdx (ix2 i j) ((contrEquiv1 (DotDims.plain M K N) K rfl rfl).symm c) = ix2 i c := by
  funext a
  match a with
  | ⟨0, _⟩ => rfl
  | ⟨1, _⟩ =>
    exact Fin.ext (((DotDims.plain M K N).lhsIdx_val_of_single (cl := 1) rfl _ _).trans
      (contrEquiv1_symm_val (DotDims.plain M K N) K rfl rfl c))

/-- The right operand's index at result index `(i, j)` and contraction coordinate `c` is `(c, j)`. -/
theorem plain_rhsIdx {M K N : ℕ} (i : Fin M) (j : Fin N) (c : Fin K) :
    (DotDims.plain M K N).rhsIdx (ix2 i j) ((contrEquiv1 (DotDims.plain M K N) K rfl rfl).symm c) = ix2 c j := by
  funext a
  match a with
  | ⟨0, _⟩ =>
    exact Fin.ext (((DotDims.plain M K N).rhsIdx_val_of_single (cr := 0) rfl _ _).trans
      (contrEquiv1_symm_val (DotDims.plain M K N) K rfl rfl c))
  | ⟨1, _⟩ => rfl

/-- The entry `(i, j)` of the host's plain product: `∑ c < K, l[i, c] · r[c, j]`. -/
theorem dotGeneral_plain_apply {M K N : ℕ} {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ c : Fin K, l (ix2 i c) * r (ix2 c j) := by
  refine (Ideal.dotGeneral_apply (DotDims.plain M K N) prec .single l r (ix2 i j)).trans ?_
  rw [← Equiv.sum_comp (contrEquiv1 (DotDims.plain M K N) K rfl rfl).symm]
  exact Finset.sum_congr rfl fun c _ => by rw [plain_lhsIdx, plain_rhsIdx]

end Cert.LibPlainDot

end
-- ==== Proof.Transform1.lean ====
/-
  The first grid region: the matrix product `x · W₁` block by block.

  The region walks the 100000 × 128 array `x` in ten blocks of 10000 rows; at point `t` it reads rows
  `10000·t … 10000·t + 9999` of `x` and the whole 128 × 5 array `W₁`, and writes the product of the two for those rows.
  Entry `(r, q)` of a matrix product is `∑ k, x[r, k] · W₁[k, q]`: it reads row `r` of the left factor only. So the
  product of block `t` of `x` with `W₁`, at `(p, q)`, is the whole product `x · W₁` at `(10000·t + p, q)`: the ten blocks
  are the restrictions of ONE whole-array function, `Cert.Gcn.transform1`, and since the blocks tile the result array the
  region leaves exactly that function of its two input arrays. (The narrowing of both factors to 16-bit floats before
  the product changes nothing over the extended reals.)
-/
import proofs.«127188_j1589137899719_1_alg».proof.Proof.Gen.KernelIdeal.Frame
import proofs.«127188_j1589137899719_1_alg».proof.Proof.Spec
import proofs.«127188_j1589137899719_1_alg».proof.Proof.LibContract
import proofs.«127188_j1589137899719_1_alg».proof.Proof.LibPlainDot
import Idealize.ShloMosaic.Lib.Pipeline.Value
import Idealize.ShloMosaic.Lib.ValueIdx

noncomputable section

open scoped BigOperators

namespace Cert.KernelIdeal.Transform1Region

open Cert.KernelIdeal Cert.KernelIdeal.Gen Idealize.ShloMosaic Idealize.ShloMosaic.ValueIdx Idealize.ShloMosaic.TcCoe Idealize.SL.Sem

/-! ## One entry, on both sides -/

/-- The block product's dimension numbers are those of a plain `10000 × 128` by `128 × 5` product. -/
theorem blockDims : dot_S10000x128_S128x5_S10000x5_1_0_0_1_n_n = DotDims.plain 10000 128 5 := rfl

/-- The whole product's dimension numbers are those of a plain `100000 × 128` by `128 × 5` product. -/
theorem arrayDims : Cert.ReferenceIdeal.dot_S100000x128_S128x5_S100000x5_1_0_0_1_n_n = DotDims.plain 100000 128 5 := rfl

/-- The body's result at row `p`, column `q` of a block: `∑ k < 128, x[p, k] · w[k, q]`. -/
theorem body_apply (x : Vec Ideal S10000x128 .f32) (w : Vec Ideal S128x5 .f32) (p : Fin 10000) (q : Fin 5) :
    k0_pay1 (F := Ideal) x w (ix2 p q) = ∑ k : Fin 128, x (ix2 p k) * w (ix2 k q) := by
  unfold k0_pay1
  show matmul dot_S10000x128_S128x5_S10000x5_1_0_0_1_n_n none (truncf (F := Ideal) .bf16 x bitsLt_bf16_f32) (truncf (F := Ideal) .bf16 w bitsLt_bf16_f32)
      (constant (F := Ideal) S10000x5 .f32 0x00000000#32) (ix2 p q) = _
  rw [blockDims]
  refine (Cert.LibContract.matmul_zero_single (DotDims.plain 10000 128 5) none 128 rfl rfl _ _ (ix2 p q)
    (fun k => ix2 p k) (fun k => ix2 k q) (fun k => Cert.LibPlainDot.plain_lhsIdx p q k) (fun k => Cert.LibPlainDot.plain_rhsIdx p q k)).trans ?_
  rfl

/-- The whole-array stage at row `r`, column `q`: `∑ k < 128, X[r, k] · W[k, q]`. -/
theorem stage_apply (X : FVec Ideal Cert.ReferenceIdeal.S100000x128 .f32) (W : FVec Ideal Cert.ReferenceIdeal.S128x5 .f32) (r : Fin 100000) (q : Fin 5) :
    Cert.Gcn.transform1 (F := Ideal) X W (ix2 r q) = ∑ k : Fin 128, X (ix2 r k) * W (ix2 k q) := by
  unfold Cert.Gcn.transform1
  rw [arrayDims]
  exact Cert.LibPlainDot.dotGeneral_plain_apply none X W r q

/-! ## From the ten blocks to the array -/

section
variable (V : (c : Dev nD) → (b : Ref sig .tc) → Buf (Elt Ideal) ((c : Thread nD τ).loc b))

/-- Both offsets of a whole-buffer access are zero. -/
theorem origin : (![0, 0] : Fin 2 → Nat) = fun _ => 0 := funext fun a => by fin_cases a <;> rfl

/-- The printed index maps over the grid: at point `t` the left operand and the result are at block row `t`, block column
    `0`, and the right operand at block `(0, 0)`. -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p`, column `k` of the left block at point `t` is row `10000·t + p`, column `k` of the left array. -/
theorem leftBlock_apply (c : Dev nD) (t : Fin cfg0.N) (p : Fin 10000) (k : Fin 128) (r : Fin 100000)
    (hr : r.val = 10000 * t.val + p.val) :
    (iblk0 V c 0 t : Vec Ideal S10000x128 .f32) (ix2 p k)
      = (V c (Pipeline.arrRef spec0 0) : S100000x128.Idx → Elt Ideal .f32) (ix2 r k) := by
  obtain ⟨e0, e1, -⟩ := blockIndices t
  unfold iblk0
  show (V c (Pipeline.arrRef spec0 0) : S100000x128.Idx → Elt Ideal .f32) (((cfg0.win 0).blk t).view.emb (ix2 p k)) = _
  refine congrArg _ (funext fun a => Fin.ext ?_)
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The right block at every point is the whole right array. -/
theorem rightBlock_apply (c : Dev nD) (t : Fin cfg0.N) (k : Fin 128) (q : Fin 5) :
    (iblk0 V c 1 t : Vec Ideal S128x5 .f32) (ix2 k q)
      = (V c (Pipeline.arrRef spec0 1) : S128x5.Idx → Elt Ideal .f32) (ix2 k q) := by
  obtain ⟨-, -, e0, e1, -⟩ := blockIndices t
  unfold iblk0
  show (V c (Pipeline.arrRef spec0 1) : S128x5.Idx → Elt Ideal .f32) (((cfg0.win 1).blk t).view.emb (ix2 k q)) = _
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 5 + 1 * q.val = q.val; rw [e1]; omega

/-- Row `p`, column `q` of the result block at point `t` sits at row `10000·t + p`, column `q` of the result array. -/
theorem outBlock_emb (t : Fin cfg0.N) (p : Fin 10000) (q : Fin 5) (r : Fin 100000) (hr : r.val = 10000 * t.val + p.val) :
    ((cfg0.win 2).blk t).view.emb (ix2 p q) = (ix2 r q : S100000x5.Idx) := by
  obtain ⟨-, -, -, -, e0, e1⟩ := blockIndices t
  refine funext fun a => Fin.ext ?_
  match a with
  | ⟨0, _⟩ => show win0_2.index t (0 : Fin 2) * 10000 + 1 * p.val = r.val; rw [e0, hr]; omega
  | ⟨1, _⟩ => show win0_2.index t (1 : Fin 2) * 5 + 1 * q.val = q.val; rw [e1]; omega

/-- What point `t` writes back is block `t` of `transform1` of the two input arrays as the region finds them. -/
theorem flushed_eq (c : Dev nD) (t : Fin cfg0.N) :
    (dat0 V c).flushed 2 t = ((cfg0.win 2).blk t).view.read (Elt Ideal)
      (Cert.Gcn.transform1 (F := Ideal) (V c (Pipeline.arrRef spec0 0)) (V c (Pipeline.arrRef spec0 1))) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x5) origin]
  funext j
  obtain ⟨p, q, rfl⟩ : ∃ (p : Fin 10000) (q : Fin 5), j = ix2 p q := ⟨j 0, j 1, eq_ix2 j⟩
  have ht : t.val < 10 := t.isLt
  have hp : p.val < 10000 := p.isLt
  obtain ⟨r, hr⟩ : ∃ r : Fin 100000, r.val = 10000 * t.val + p.val := ⟨⟨10000 * t.val + p.val, by omega⟩, rfl⟩
  show k0_pay1 (F := Ideal) (iblk0 V c 0 t) (iblk0 V c 1 t) (ix2 p q)
      = Cert.Gcn.transform1 (F := Ideal) (V c (Pipeline.arrRef spec0 0)) (V c (Pipeline.arrRef spec0 1)) (((cfg0.win 2).blk t).view.emb (ix2 p q))
  rw [outBlock_emb t p q r hr, body_apply, stage_apply]
  exact Finset.sum_congr rfl fun k _ => by rw [leftBlock_apply V c t p k r hr, rightBlock_apply V c t k q]

/-- An index of the result array is in point `t`'s block iff each coordinate is in the block's range on its axis. -/
theorem mem_block (t : Fin cfg0.N) (i : S100000x5.Idx) :
    i ∈ ((cfg0.win 2).blk t).view.set ↔ ∀ a : Fin 2, win0_2.index t a * S10000x5.size a ≤ (i a).val ∧ (i a).val < win0_2.index t a * S10000x5.size a + S10000x5.size a := by
  show i ∈ ((View.whole main_v30).slice (win0_2.rect t)).set ↔ _
  rw [View.set_slice_whole, Rect.mem_set_unit]
  exact Iff.rfl

/-- The ten blocks tile the result array: row `r` lies in the block of point `r / 10000`. -/
theorem covered (i : S100000x5.Idx) : ∃ t : Fin cfg0.N, (cfg0.win 2).flush t = true ∧ i ∈ ((cfg0.win 2).blk t).view.set := by
  have hi0 : (i 0).val < 100000 := (i 0).isLt
  have hi1 : (i 1).val < 5 := (i 1).isLt
  obtain ⟨t, ht⟩ : ∃ t : Fin cfg0.N, t.val = (i 0).val / 10000 := ⟨⟨(i 0).val / 10000, by show _ < 10; omega⟩, rfl⟩
  obtain ⟨-, -, -, -, e0, e1⟩ := blockIndices t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; rw [e0, ht]; omega
  | ⟨1, _⟩ => show win0_2.index t (1 : Fin 2) * 5 ≤ (i 1).val ∧ (i 1).val < win0_2.index t (1 : Fin 2) * 5 + 5; rw [e1]; omega

/-- The region leaves `x · W₁` in its result array. -/
theorem final (c : Dev nD) :
    (dat0 V c).arrAt 2 cfg0.N = Cert.Gcn.transform1 (F := Ideal) (V c (Pipeline.arrRef spec0 0)) (V c (Pipeline.arrRef spec0 1)) :=
  (dat0 V c).arrAt_eq_of_cover 2 _ (fun t _ => flushed_eq V c t) covered

end

end Cert.KernelIdeal.Transform1Region

end
-- ==== Proof.Transform2.lean ====
/-
  The third grid region: the matrix product `h · W₂` block by block.

  The region walks the 100000 × 5 array `h` in ten blocks of 10000 rows; at point `t` it reads rows
  `10000·t … 10000·t + 9999` of `h` and the whole 5 × 16 array `W₂`, and writes the product of the two for those rows.
  Entry `(r, q)` of a matrix product is `∑ k, h[r, k] · W₂[k, q]`: it reads row `r` of the left factor only. So the
  product of block `t` of `h` with `W₂`, at `(p, q)`, is the whole product `h · W₂` at `(10000·t + p, q)`: the ten blocks
  are the restrictions of ONE whole-array function, `Cert.Gcn.transform2`, and since the blocks tile the result array the
  region leaves exactly that function of its two input arrays. (The reshaping of the left block to its own shape is the
  identity, and the narrowing of both factors to 16-bit floats before the product changes nothing over the extended
  reals.)
-/
import proofs.«127188_j1589137899719_1_alg».proof.Proof.Gen.KernelIdeal.Frame
import proofs.«127188_j1589137899719_1_alg».proof.Proof.Spec
import proofs.«127188_j1589137899719_1_alg».proof.Proof.LibContract
import proofs.«127188_j1589137899719_1_alg».proof.Proof.LibPlainDot
import Idealize.ShloMosaic.Lib.Pipeline.Value
import Idealize.ShloMosaic.Lib.ValueIdx

noncomputable section

open scoped BigOperators

namespace Cert.KernelIdeal.Transform2Region

open Cert.KernelIdeal Cert.KernelIdeal.Gen Idealize.ShloMosaic Idealize.ShloMosaic.ValueIdx Idealize.ShloMosaic.TcCoe Idealize.SL.Sem

/-! ## One entry, on both sides -/

/-- The block product's dimension numbers are those of a plain `10000 × 5` by `5 × 16` product. -/
theorem blockDims : dot_S10000x5_S5x16_S10000x16_1_0_0_1_n_n = DotDims.plain 10000 5 16 := rfl

/-- The whole product's dimension numbers are those of a plain `100000 × 5` by `5 × 16` product. -/
theorem arrayDims : Cert.ReferenceIdeal.dot_S100000x5_S5x16_S100000x16_1_0_0_1_n_n = DotDims.plain 100000 5 16 := rfl

/-- The body's result at row `p`, column `q` of a block: `∑ k < 5, h[p, k] · w[k, q]`. -/
theorem body_apply (h : Vec Ideal S10000x5 .f32) (w : Vec Ideal S5x16 .f32) (p : Fin 10000) (q : Fin 16) :
    k2_pay1 (F := Ideal) h w (ix2 p q) = ∑ k : Fin 5, h (ix2 p k) * w (ix2 k q) := by
  unfold k2_pay1
  simp only [shapeCast_self]
  show matmul dot_S10000x5_S5x16_S10000x16_1_0_0_1_n_n none (truncf (F := Ideal) .bf16 h bitsLt_bf16_f32) (truncf (F := Ideal) .bf16 w bitsLt_bf16_f32)
      (constant (F := Ideal) S10000x16 .f32 0x00000000#32) (ix2 p q) = _
  rw [blockDims]
  refine (Cert.LibContract.matmul_zero_single (DotDims.plain 10000 5 16) none 5 rfl rfl _ _ (ix2 p q)
    (fun k => ix2 p k) (fun k => ix2 k q) (fun k => Cert.LibPlainDot.plain_lhsIdx p q k) (fun k => Cert.LibPlainDot.plain_rhsIdx p q k)).trans ?_
  rfl

/-- The whole-array stage at row `r`, column `q`: `∑ k < 5, H[r, k] · W[k, q]`. -/
theorem stage_apply (H : FVec Ideal Cert.ReferenceIdeal.S100000x5 .f32) (W : FVec Ideal Cert.ReferenceIdeal.S5x16 .f32) (r : Fin 100000) (q : Fin 16) :
    Cert.Gcn.transform2 (F := Ideal) H W (ix2 r q) = ∑ k : Fin 5, H (ix2 r k) * W (ix2 k q) := by
  unfold Cert.Gcn.transform2
  rw [arrayDims]
  exact Cert.LibPlainDot.dotGeneral_plain_apply none H W r q

/-! ## From the ten blocks to the array -/

section
variable (V : (c : Dev nD) → (b : Ref sig .tc) → Buf (Elt Ideal) ((c : Thread nD τ).loc b))

/-- Both offsets of a whole-buffer access are zero. -/
theorem origin : (![0, 0] : Fin 2 → Nat) = fun _ => 0 := funext fun a => by fin_cases a <;> rfl

/-- The printed index maps over the grid: at point `t` the left operand and the result are at block row `t`, block column
    `0`, and the right operand at block `(0, 0)`. -/
theorem blockIndices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p`, column `k` of the left block at point `t` is row `10000·t + p`, column `k` of the left array. -/
theorem leftBlock_apply (c : Dev nD) (t : Fin cfg2.N) (p : Fin 10000) (k : Fin 5) (r : Fin 100000)
    (hr : r.val = 10000 * t.val + p.val) :
    (iblk2 V c 0 t : Vec Ideal S10000x5 .f32) (ix2 p k)
      = (V c (Pipeline.arrRef spec2 0) : S100000x5.Idx → Elt Ideal .f32) (ix2 r k) := by
  obtain ⟨e0, e1, -⟩ := blockIndices t
  unfold iblk2
  show (V c (Pipeline.arrRef spec2 0) : S100000x5.Idx → Elt Ideal .f32) (((cfg2.win 0).blk t).view.emb (ix2 p k)) = _
  refine congrArg _ (funext fun a => Fin.ext ?_)
  match a with
  | ⟨0, _⟩ => show win2_0.index t (0 : Fin 2) * 10000 + 1 * p.val = r.val; rw [e0, hr]; omega
  | ⟨1, _⟩ => show win2_0.index t (1 : Fin 2) * 5 + 1 * k.val = k.val; rw [e1]; omega

/-- The right block at every point is the whole right array. -/
theorem rightBlock_apply (c : Dev nD) (t : Fin cfg2.N) (k : Fin 5) (q : Fin 16) :
    (iblk2 V c 1 t : Vec Ideal S5x16 .f32) (ix2 k q)
      = (V c (Pipeline.arrRef spec2 1) : S5x16.Idx → Elt Ideal .f32) (ix2 k q) := by
  obtain ⟨-, -, e0, e1, -⟩ := blockIndices t
  unfold iblk2
  show (V c (Pipeline.arrRef spec2 1) : S5x16.Idx → Elt Ideal .f32) (((cfg2.win 1).blk t).view.emb (ix2 k q)) = _
  refine congrArg _ (funext fun a => Fin.ext ?_)
  match a with
  | ⟨0, _⟩ => show win2_1.index t (0 : Fin 2) * 5 + 1 * k.val = k.val; rw [e0]; omega
  | ⟨1, _⟩ => show win2_1.index t (1 : Fin 2) * 16 + 1 * q.val = q.val; rw [e1]; omega

/-- Row `p`, column `q` of the result block at point `t` sits at row `10000·t + p`, column `q` of the result array. -/
theorem outBlock_emb (t : Fin cfg2.N) (p : Fin 10000) (q : Fin 16) (r : Fin 100000) (hr : r.val = 10000 * t.val + p.val) :
    ((cfg2.win 2).blk t).view.emb (ix2 p q) = (ix2 r q : S100000x16.Idx) := by
  obtain ⟨-, -, -, -, e0, e1⟩ := blockIndices t
  refine funext fun a => Fin.ext ?_
  match a with
  | ⟨0, _⟩ => show win2_2.index t (0 : Fin 2) * 10000 + 1 * p.val = r.val; rw [e0, hr]; omega
  | ⟨1, _⟩ => show win2_2.index t (1 : Fin 2) * 16 + 1 * q.val = q.val; rw [e1]; omega

/-- What point `t` writes back is block `t` of `transform2` of the two input arrays as the region finds them. -/
theorem flushed_eq (c : Dev nD) (t : Fin cfg2.N) :
    (dat2 V c).flushed 2 t = ((cfg2.win 2).blk t).view.read (Elt Ideal)
      (Cert.Gcn.transform2 (F := Ideal) (V c (Pipeline.arrRef spec2 0)) (V c (Pipeline.arrRef spec2 1))) := by
  show (cfg2.win 2).cut (grid2.coords t) ((dat2 V c).after 2 t) = _
  rw [after2_2]
  unfold out2_2
  rw [View.canon_unit_zero origin]
  simp only [View.ld_unit_zero (S := S10000x5) origin, View.ld_unit_zero (S := S5x16) origin]
  funext j
  obtain ⟨p, q, rfl⟩ : ∃ (p : Fin 10000) (q : Fin 16), j = ix2 p q := ⟨j 0, j 1, eq_ix2 j⟩
  have ht : t.val < 10 := t.isLt
  have hp : p.val < 10000 := p.isLt
  obtain ⟨r, hr⟩ : ∃ r : Fin 100000, r.val = 10000 * t.val + p.val := ⟨⟨10000 * t.val + p.val, by omega⟩, rfl⟩
  show k2_pay1 (F := Ideal) (iblk2 V c 0 t) (iblk2 V c 1 t) (ix2 p q)
      = Cert.Gcn.transform2 (F := Ideal) (V c (Pipeline.arrRef spec2 0)) (V c (Pipeline.arrRef spec2 1)) (((cfg2.win 2).blk t).view.emb (ix2 p q))
  rw [outBlock_emb t p q r hr, body_apply, stage_apply]
  exact Finset.sum_congr rfl fun k _ => by rw [leftBlock_apply V c t p k r hr, rightBlock_apply V c t k q]

/-- An index of the result array is in point `t`'s block iff each coordinate is in the block's range on its axis. -/
theorem mem_block (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v46).slice (win2_2.rect t)).set ↔ _
  rw [View.set_slice_whole, Rect.mem_set_unit]
  exact Iff.rfl

/-- The ten blocks tile the result array: row `r` lies in the block of point `r / 10000`. -/
theorem covered (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ : ∃ t : Fin cfg2.N, t.val = (i 0).val / 10000 := ⟨⟨(i 0).val / 10000, by show _ < 10; omega⟩, rfl⟩
  obtain ⟨-, -, -, -, e0, e1⟩ := blockIndices t
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; rw [e0, ht]; omega
  | ⟨1, _⟩ => show win2_2.index t (1 : Fin 2) * 16 ≤ (i 1).val ∧ (i 1).val < win2_2.index t (1 : Fin 2) * 16 + 16; rw [e1]; omega

/-- The region leaves `h · W₂` in its result array. -/
theorem final (c : Dev nD) :
    (dat2 V c).arrAt 2 cfg2.N = Cert.Gcn.transform2 (F := Ideal) (V c (Pipeline.arrRef spec2 0)) (V c (Pipeline.arrRef spec2 1)) :=
  (dat2 V c).arrAt_eq_of_cover 2 _ (fun t _ => flushed_eq V c t) covered

end

end Cert.KernelIdeal.Transform2Region

end
-- ==== Proof.LibColumn.lean ====
/-
  Column layouts read at an index: the two forms a per-row weight takes on its way to a row-wise product.

  A vector `[a]` reshaped to a column `[a, 1]` keeps entry `e` at `(e, 0)`; a column `[a, 1]` broadcast along the rows of an
  `[a, b]` array repeats entry `(p, 0)` across row `p`. Both are stated over literal `Fin` coordinates, in the manner of
  the library's row forms (a vector to a row `[1, a]`, a row broadcast down the columns).
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to the column `[a, 1]` reads, at `(e, u)`, the operand at `e`, whatever the unit coordinate `u`. -/
theorem shapeCast_a_a1_apply {a : ℕ} (x : (⟨1, ![a]⟩ : Shape).Idx → α) (h : (⟨1, ![a]⟩ : Shape).ShapeCasts ⟨2, ![a, 1]⟩)
    (e : Fin a) (u : Fin 1) : shapeCast ⟨2, ![a, 1]⟩ x h (ix2 e u) = x (ix1 e) :=
  shapeCast_apply x h _ _ (by
    have hu : u.val = 0 := by omega
    rw [Shape.rowMajor_val_two, Shape.rowMajor_val_one]
    show e.val = e.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LogSoftmax.lean ====
/-
  The last grid region: the bias and the row-wise log-softmax, block by block.

  The region walks the 100000 × 16 array `a` in ten blocks of 10000 rows; at point `t` it reads rows
  `10000·t … 10000·t + 9999` of `a` and the whole one-row bias `b`. With `z[p, q] = a[p, q] + b[0, q]` and `M[p]` the
  largest entry of row `p` of `z` (the fold of `max` from `-∞`), it writes `(z[p, q] - M[p]) - log ∑_j exp (z[p, j] - M[p])`.
  Every entry of row `p` of the result depends on row `p` of `a` and on the bias row only, so the ten blocks are the
  restrictions of ONE whole-array function, `Cert.Gcn.biasLogSoftmax`, and since the blocks tile the array the region
  leaves exactly that function of its two input arrays.
-/
import proofs.«127188_j1589137899719_1_alg».proof.Proof.Gen.KernelIdeal.Frame
import proofs.«127188_j1589137899719_1_alg».proof.Proof.Spec
import proofs.«127188_j1589137899719_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LogSoftmaxRegion

open Cert.KernelIdeal Cert.KernelIdeal.Gen Idealize.ShloMosaic Idealize.ShloMosaic.ValueIdx Idealize.ShloMosaic.TcCoe Idealize.SL.Sem

/-! ## One row of sixteen entries -/

/-- The largest of a row's sixteen entries: the fold of `max` from `-∞`. -/
def top (z : Fin 16 → EReal) : EReal :=
  (Finset.univ : Finset (Fin 16)).fold max (Ideal.ofBits .f32 0xFF800000#32) z

/-- Entry `q` of the log-softmax of a row `z`: `(z q - max z) - log ∑_k exp (z k - max z)`. -/
def logSoftmaxRow (z : Fin 16 → EReal) (q : Fin 16) : EReal :=
  (z q - top z) - Ideal.log (∑ k : Fin 16, Ideal.exp (z k - top z))

/-- Joining with `-∞` changes nothing. -/
theorem max_negInf (y : EReal) : max (Ideal.ofBits .f32 0xFF800000#32) y = y := by
  simp [Ideal.ofBits, Ideal.ieee]

/-! ## The body on one block -/

/-- In a block, the reduced index `p` with column `k` put back is `(p, k)`. -/
theorem block_lift (h : S10000x16.Reduces [1] S10000) (p : Fin 10000) (k : Fin 16) :
    h.lift (ix1 p) k = ix2 p k := by
  funext c; apply Fin.ext
  fin_cases c <;> rfl

/-- The body's row maximum at row `p` of a block `z` is the largest entry of that row. -/
theorem block_rowMax (z : FVec Ideal S10000x16 .f32) (p : Fin 10000) :
    multiReduction (F := Ideal) .maximumf [1] S10000 z 0xFF800000#32 reduces_S10000x16_S10000 (.inl rfl) rfl (ix1 p)
      = top fun k => z (ix2 p k) := by
  refine (Ideal.multiReduction_maximumf_single z _ reduces_S10000x16_S10000 _ _ (ix1 p)).trans ?_
  exact congrArg (fun f => Finset.fold max (Ideal.ofBits .f32 0xFF800000#32) f (Finset.univ : Finset (Fin 16)))
    (funext fun k => congrArg z (block_lift _ p k))

/-- The body's row sum at row `p` of a block `w` is the sum of that row's sixteen entries. -/
theorem block_rowSum (w : FVec Ideal S10000x16 .f32) (p : Fin 10000) :
    multiReduction (F := Ideal) .add [1] S10000 w 0x00000000#32 reduces_S10000x16_S10000 (.inl rfl) rfl (ix1 p)
      = ∑ k : Fin 16, w (ix2 p k) := by
  refine (Ideal.multiReduction_add_single w _ reduces_S10000x16_S10000 _ _ (ix1 p)).trans ?_
  exact Finset.sum_congr rfl fun k _ => congrArg w (block_lift _ p k)

/-- Subtracting the row maximum, as the body does it (the maxima as a column, repeated along the rows): at `(p, k)` it
    is `z[p, k]` less the largest entry of row `p`. -/
theorem block_shift_apply (z : FVec Ideal S10000x16 .f32) (p : Fin 10000) (k : Fin 16) :
    subf z (broadcastTo S10000x16
        (shapeCast S10000x1 (multiReduction (F := Ideal) .maximumf [1] S10000 z 0xFF800000#32 reduces_S10000x16_S10000 (.inl rfl) rfl)
          shapeCasts_S10000_S10000x1) broadcasts_S10000x1_S10000x16) (ix2 p k)
      = z (ix2 p k) - top fun k' => z (ix2 p k') := by
  rw [subf_apply, Cert.LibColumn.broadcastTo_a1_ab_apply, Cert.LibColumn.shapeCast_a_a1_apply, block_rowMax]

/-- The logarithm of the row sums of exponentials, as the body spreads it over the block: at `(p, q)` it is
    `log ∑_k exp s[p, k]`. -/
theorem block_logSum_apply (s : FVec Ideal S10000x16 .f32) (p : Fin 10000) (q : Fin 16) :
    broadcastTo S10000x16
        (log (shapeCast S10000x1 (multiReduction (F := Ideal) .add [1] S10000 (exp s) 0x00000000#32 reduces_S10000x16_S10000 (.inl rfl) rfl)
          shapeCasts_S10000_S10000x1)) broadcasts_S10000x1_S10000x16 (ix2 p q)
      = Ideal.log (∑ k : Fin 16, Ideal.exp (s (ix2 p k))) := by
  rw [Cert.LibColumn.broadcastTo_a1_ab_apply]
  show Ideal.log (shapeCast S10000x1 (multiReduction (F := Ideal) .add [1] S10000 (exp s) 0x00000000#32 reduces_S10000x16_S10000 (.inl rfl) rfl)
      shapeCasts_S10000_S10000x1 (ix2 p (0 : Fin 1))) = _
  rw [Cert.LibColumn.shapeCast_a_a1_apply, block_rowSum]
  rfl

/-- Adding the bias row to every row of a block: at `(p, k)` it is `a[p, k] + b[0, k]`. -/
theorem block_bias_apply (b : FVec Ideal S1x16 .f32) (a : FVec Ideal S10000x16 .f32) (p : Fin 10000) (k : Fin 16) :
    addf a (broadcastTo S10000x16 b broadcasts_S1x16_S10000x16) (ix2 p k) = a (ix2 p k) + b (ix2 (0 : Fin 1) k) := by
  rw [addf_apply, broadcastTo_1b_ab_apply]

/-- The body's result at row `p`, column `q` of a block: the log-softmax of the row `k ↦ a[p, k] + b[0, k]`, at `q`. -/
theorem body_apply (b : Vec Ideal S1x16 .f32) (a : Vec Ideal S10000x16 .f32) (p : Fin 10000) (q : Fin 16) :
    k3_pay1 (F := Ideal) b a (ix2 p q) = logSoftmaxRow (fun k => a (ix2 p k) + b (ix2 (0 : Fin 1) k)) q := by
  unfold k3_pay1
  simp only [shapeCast_self]
  rw [subf_apply, block_shift_apply, block_logSum_apply]
  rw [Finset.sum_congr rfl fun k _ => congrArg Ideal.exp (block_shift_apply _ p k)]
  simp only [block_bias_apply]
  rfl

/-! ## The whole-array stage -/

/-- The array's sixteen columns are the one axis the stage reduces. -/
theorem array_reduces : Cert.ReferenceIdeal.S100000x16.Reduces [1] Cert.ReferenceIdeal.S100000 := by decide

/-- In the array, the reduced index `r` with column `k` put back is `(r, k)`. -/
theorem array_lift (h : Cert.ReferenceIdeal.S100000x16.Reduces [1] Cert.ReferenceIdeal.S100000) (r : Fin 100000) (k : Fin 16) :
    h.lift (ix1 r) k = ix2 r k := by
  funext c; apply Fin.ext
  fin_cases c <;> rfl

/-- The stage's row maximum at row `r` of an array `Z` is the largest entry of that row: the reduce from `-∞` is the
    fold over the row, and the further join with `-∞` changes nothing. -/
theorem array_rowMax (Z : FVec Ideal Cert.ReferenceIdeal.S100000x16 .f32) (r : Fin 100000) :
    Cert.Gcn.rowMax (F := Ideal) Z (ix1 r) = top fun k => Z (ix2 r k) := by
  unfold Cert.Gcn.rowMax
  rw [maximumf_apply]
  show max (Ideal.ofBits .f32 0xFF800000#32) _ = _
  rw [max_negInf]
  refine (Host.reduce_eq_fold_single FloatOps.maximumf Z _ _ array_reduces _ (ix1 r)).trans ?_
  exact congrArg (fun f => Finset.fold max (Ideal.ofBits .f32 0xFF800000#32) f (Finset.univ : Finset (Fin 16)))
    (funext fun k => congrArg Z (array_lift _ r k))

/-- The stage's shifted array at `(r, k)`: `Z[r, k]` less the largest entry of row `r`. -/
theorem array_shift_apply (Z : FVec Ideal Cert.ReferenceIdeal.S100000x16 .f32) (r : Fin 100000) (k : Fin 16) :
    Cert.Gcn.shifted (F := Ideal) Z (ix2 r k) = Z (ix2 r k) - top fun k' => Z (ix2 r k') := by
  unfold Cert.Gcn.shifted
  rw [subf_apply,
    broadcastInDim_apply (s := Cert.ReferenceIdeal.S100000x1) (t := Cert.ReferenceIdeal.S100000x16) ![0, 1] _ _ (ix2 r k) (ix2 r (0 : Fin 1)) (fun ax => by
      match ax with
      | ⟨0, _⟩ => rfl
      | ⟨1, _⟩ => rfl),
    broadcastInDim_apply (s := Cert.ReferenceIdeal.S100000) (t := Cert.ReferenceIdeal.S100000x1) ![0] _ _ (ix2 r (0 : Fin 1)) (ix1 r) (fun ax => by
      match ax with
      | ⟨0, _⟩ => rfl),
    array_rowMax]

/-- The stage's row sum at row `r` of an array `W`, taken from `0`, is the sum of that row's sixteen entries. -/
theorem array_rowSum (W : FVec Ideal Cert.ReferenceIdeal.S100000x16 .f32) (r : Fin 100000) :
    Host.reduceAdd (F := Ideal) W (constant (F := Ideal) Cert.ReferenceIdeal.S_ .f32 0x00000000#32)
        Cert.ReferenceIdeal.Gen.reducesTo_S100000x16_S100000_d1 Cert.ReferenceIdeal.Gen.h_S_ (ix1 r)
      = ∑ k : Fin 16, W (ix2 r k) := by
  show Ideal.hostReduceAdd _ W (Ideal.ofBits .f32 0x00000000#32) (ix1 r) = _
  rw [Ideal.hostReduceAdd_single _ array_reduces, Ideal.ofBits_zero_f32, zero_add]
  exact Finset.sum_congr rfl fun k _ => congrArg W (array_lift _ r k)

/-- Adding the bias row to every row of the array: at `(r, k)` it is `A[r, k] + b[0, k]`. -/
theorem array_bias_apply (A : FVec Ideal Cert.ReferenceIdeal.S100000x16 .f32) (brow : FVec Ideal Cert.ReferenceIdeal.S1x16 .f32)
    (r : Fin 100000) (k : Fin 16) :
    addf A (broadcastInDim Cert.ReferenceIdeal.S100000x16 ![0, 1] Cert.ReferenceIdeal.Gen.bcast_S1x16_S100000x16_0_1 brow) (ix2 r k)
      = A (ix2 r k) + brow (ix2 (0 : Fin 1) k) := by
  rw [addf_apply, broadcastInDim_apply ![0, 1] _ brow (ix2 r k) (ix2 (0 : Fin 1) k) (fun ax => by
    match ax with
    | ⟨0, _⟩ => rfl
    | ⟨1, _⟩ => rfl)]

/-- The stage's exponential and logarithm are taken entry by entry. -/
theorem hostExp_apply {s : Shape} (x : FVec Ideal s .f32) (i : s.Idx) : Host.exp (F := Ideal) x i = Ideal.exp (x i) := rfl
theorem hostLog_apply {s : Shape} (x : FVec Ideal s .f32) (i : s.Idx) : Host.log (F := Ideal) x i = Ideal.log (x i) := rfl

/-- The row-wise log-softmax of an array `Z` at row `r`, column `q`: the log-softmax of row `r` of `Z`, at `q`. -/
theorem array_rows_apply (Z : FVec Ideal Cert.ReferenceIdeal.S100000x16 .f32) (r : Fin 100000) (q : Fin 16) :
    Cert.Gcn.logSoftmaxRows (F := Ideal) Z (ix2 r q) = logSoftmaxRow (fun k => Z (ix2 r k)) q := by
  unfold Cert.Gcn.logSoftmaxRows
  rw [subf_apply, array_shift_apply,
    broadcastInDim_apply (s := Cert.ReferenceIdeal.S100000x1) (t := Cert.ReferenceIdeal.S100000x16) ![0, 1] _ _ (ix2 r q) (ix2 r (0 : Fin 1)) (fun ax => by
      match ax with
      | ⟨0, _⟩ => rfl
      | ⟨1, _⟩ => rfl),
    hostLog_apply,
    broadcastInDim_apply (s := Cert.ReferenceIdeal.S100000) (t := Cert.ReferenceIdeal.S100000x1) ![0] _ _ (ix2 r (0 : Fin 1)) (ix1 r) (fun ax => by
      match ax with
      | ⟨0, _⟩ => rfl),
    array_rowSum,
    Finset.sum_congr rfl fun k _ => (hostExp_apply _ (ix2 r k)).trans (congrArg Ideal.exp (array_shift_apply _ r k))]
  rfl

/-- The whole-array stage at row `r`, column `q`: the log-softmax of the row `k ↦ A[r, k] + b[0, k]`, at `q`. -/
theorem stage_apply (A : FVec Ideal Cert.ReferenceIdeal.S100000x16 .f32) (brow : FVec Ideal Cert.ReferenceIdeal.S1x16 .f32)
    (r : Fin 100000) (q : Fin 16) :
    Cert.Gcn.biasLogSoftmax (F := Ideal) A brow (ix2 r q) = logSoftmaxRow (fun k => A (ix2 r k) + brow (ix2 (0 : Fin 1) k)) q := by
  unfold Cert.Gcn.biasLogSoftmax
  rw [array_rows_apply]
  exact congrArg (fun z => logSoftmaxRow z q) (funext fun k => array_bias_apply A brow r k)

/-- One row of a block against one row of the array: if row `p` of the block `a` is row `r` of the array `A` and the two
    bias rows agree, the body's result at `(p, q)` is the stage's at `(r, q)`. -/
theorem entry_eq (b : Vec Ideal S1x16 .f32) (a : Vec Ideal S10000x16 .f32)
    (A : FVec Ideal Cert.ReferenceIdeal.S100000x16 .f32) (B : FVec Ideal Cert.ReferenceIdeal.S1x16 .f32)
    (p : Fin 10000) (q : Fin 16) (r : Fin 100000)
    (ha : ∀ k : Fin 16, a (ix2 p k) = A (ix2 r k)) (hb : ∀ k : Fin 16, b (ix2 (0 : Fin 1) k) = B (ix2 (0 : Fin 1) k)) :
    k3_pay1 (F := Ideal) b a (ix2 p q) = Cert.Gcn.biasLogSoftmax (F := Ideal) A B (ix2 r q) := by
  rw [body_apply, stage_apply]
  exact congrArg (fun z => logSoftmaxRow z q) (funext fun k => by rw [ha k, hb k])

/-! ## From the ten blocks to the array -/

section
variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: at point `t` the input and the output are at block row `t`, block column `0`, and
    the bias row at block `(0, 0)`. -/
theorem blockIndices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `biasLogSoftmax` of the two input arrays as the region finds them. -/
theorem flushed_eq (c : Dev nD) (t : Fin cfg3.N) :
    (dat3 V c).flushed 2 t = ((cfg3.win 2).blk t).view.read (Elt Ideal)
      (Cert.Gcn.biasLogSoftmax (F := Ideal) (V c (Pipeline.arrRef spec3 0)) (V c (Pipeline.arrRef spec3 1))) := by
  show (cfg3.win 2).cut (grid3.coords t) ((dat3 V c).after 2 t) = _
  rw [after3_2]
  unfold out3_2
  rw [View.canon_unit_zero origin]
  simp only [View.ld_unit_zero (S := S1x16) origin, View.ld_unit_zero (S := S10000x16) origin]
  obtain ⟨e00, e01, e10, e11, e20, e21⟩ := blockIndices t
  funext j
  have hj0 : (j 0).val < 10000 := (j 0).isLt
  have hj1 : (j 1).val < 16 := (j 1).isLt
  have ht : t.val < 10 := lt_of_lt_of_eq (show t.val < grid3.N from t.isLt) N_3
  -- the place of the block entry `j` in the array: row `10000·t + j₀`, column `j₁`
  have hplace : ((cfg3.win 2).blk t).view.emb j
      = ix2 (⟨t.val * 10000 + (j 0).val, by omega⟩ : Fin 100000) (⟨(j 1).val, hj1⟩ : Fin 16) := by
    funext a; apply Fin.ext
    match a with
    | ⟨0, _⟩ => show win3_2.index t (0 : Fin 2) * 10000 + 1 * (j 0).val = t.val * 10000 + (j 0).val; omega
    | ⟨1, _⟩ => show win3_2.index t (1 : Fin 2) * 16 + 1 * (j 1).val = (j 1).val; omega
  show k3_pay1 (F := Ideal) (iblk3 V c 1 t) (iblk3 V c 0 t) j
      = Cert.Gcn.biasLogSoftmax (F := Ideal) (V c (Pipeline.arrRef spec3 0)) (V c (Pipeline.arrRef spec3 1)) (((cfg3.win 2).blk t).view.emb j)
  rw [hplace]
  have hj : j = ix2 (⟨(j 0).val, hj0⟩ : Fin 10000) (⟨(j 1).val, hj1⟩ : Fin 16) := eq_ix2 j
  refine (congrArg (k3_pay1 (F := Ideal) (iblk3 V c 1 t) (iblk3 V c 0 t)) hj).trans ?_
  refine entry_eq (iblk3 V c 1 t) (iblk3 V c 0 t) (V c (Pipeline.arrRef spec3 0)) (V c (Pipeline.arrRef spec3 1)) _ _ _ (fun k => ?_) (fun k => ?_)
  · -- row `j₀` of the input block at point `t` is row `10000·t + j₀` of its array
    show V c (Pipeline.arrRef spec3 0) (((cfg3.win 0).blk t).view.emb (ix2 (⟨(j 0).val, hj0⟩ : Fin 10000) k)) = _
    refine congrArg (V c (Pipeline.arrRef spec3 0)) (funext fun a => Fin.ext ?_)
    match a with
    | ⟨0, _⟩ => show win3_0.index t (0 : Fin 2) * 10000 + 1 * (j 0).val = t.val * 10000 + (j 0).val; omega
    | ⟨1, _⟩ => show win3_0.index t (1 : Fin 2) * 16 + 1 * k.val = k.val; omega
  · -- the bias window's block is the whole one-row array
    show V c (Pipeline.arrRef spec3 1) (((cfg3.win 1).blk t).view.emb (ix2 (0 : Fin 1) k)) = _
    refine congrArg (V c (Pipeline.arrRef spec3 1)) (funext fun a => Fin.ext ?_)
    match a with
    | ⟨0, _⟩ => show win3_1.index t (0 : Fin 2) * 1 + 1 * 0 = 0; omega
    | ⟨1, _⟩ => show win3_1.index t (1 : Fin 2) * 16 + 1 * k.val = k.val; omega

/-- An index of the array is in point `t`'s block iff each coordinate is in the block's range on its axis. -/
theorem mem_block (t : Fin cfg3.N) (i : S100000x16.Idx) :
    i ∈ ((cfg3.win 2).blk t).view.set ↔ ∀ a : Fin 2, win3_2.index t a * S10000x16.size a ≤ (i a).val ∧ (i a).val < win3_2.index t a * S10000x16.size a + S10000x16.size a := by
  show i ∈ ((View.whole main_v61).slice (win3_2.rect t)).set ↔ _
  rw [View.set_slice_whole, Rect.mem_set_unit]
  exact Iff.rfl

/-- The ten blocks tile the array: row `r` is in the block of point `r / 10000`. -/
theorem covered (i : S100000x16.Idx) : ∃ t : Fin cfg3.N, (cfg3.win 2).flush t = true ∧ i ∈ ((cfg3.win 2).blk t).view.set := by
  have hi0 : (i 0).val < 100000 := (i 0).isLt
  have hi1 : (i 1).val < 16 := (i 1).isLt
  let t : Fin cfg3.N := ⟨(i 0).val / 10000, by show _ < grid3.N; rw [N_3]; omega⟩
  have ht : t.val = (i 0).val / 10000 := rfl
  obtain ⟨-, -, -, -, e20, e21⟩ := blockIndices t
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 16 ≤ (i 1).val ∧ (i 1).val < win3_2.index t (1 : Fin 2) * 16 + 16; omega

/-- The array the region leaves: the bias added and the row-wise log-softmax taken, of its two input arrays as it finds
    them. -/
theorem final (c : Dev nD) :
    (dat3 V c).arrAt 2 cfg3.N = Cert.Gcn.biasLogSoftmax (F := Ideal) (V c (Pipeline.arrRef spec3 0)) (V c (Pipeline.arrRef spec3 1)) :=
  (dat3 V c).arrAt_eq_of_cover 2 _ (fun t _ => flushed_eq V c t) (covered)

end

end Cert.KernelIdeal.LogSoftmaxRegion

end
-- ==== Proof.LibRow.lean ====
/-
  A vector laid out as one row, two ways.

  A reshape of an `[a]` vector to `[1, a]` and a `broadcast_in_dim` of it to `[1, a]` along axis 1 are the same array:
  entry `(0, i)` is the vector's entry `i` either way. (A kernel's wrapper reshapes a bias to a row; a jnp reference
  broadcasts it.)
-/
import Idealize.ShloMosaic.Lib.Pipeline.Value
import Idealize.ShloMosaic.Lib.ValueIdx
import Idealize.ShloMosaic.Lib.ValueLayout

namespace Cert.LibRow

open Idealize.ShloMosaic Idealize.ShloMosaic.ValueIdx

variable {α : Type}

/-- An `[a]` vector broadcast to the row `[1, a]` along axis 1 reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2)) (u : Fin 1) (i : Fin a) :
    broadcastInDim ⟨2, ![1, a]⟩ (![1] : Fin 1 → Fin 2) h x (ix2 u i) = x (ix1 i) := by
  refine broadcastInDim_apply (![1] : Fin 1 → Fin 2) h x (ix2 u i) (ix1 i) fun ax => ?_
  match ax with
  | ⟨0, _⟩ =>
    show i.val = if a = 1 then 0 else i.val
    split
    · have := i.isLt; omega
    · rfl

/-- The reshape of a vector to one row is its broadcast to one row along axis 1. -/
theorem shapeCast_row_eq_broadcastInDim {a : ℕ} (x : (⟨1, ![a]⟩ : Shape).Idx → α)
    (hc : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x hc = broadcastInDim ⟨2, ![1, a]⟩ (![1] : Fin 1 → Fin 2) hb x := by
  funext j
  obtain ⟨u, i, rfl⟩ : ∃ (u : Fin 1) (i : Fin a), j = ix2 u i := ⟨j 0, j 1, eq_ix2 j⟩
  rw [shapeCast_a_1a_apply, broadcastInDim_a_1a_apply]

end Cert.LibRow
-- ==== Proof.KernelValue.lean ====
/-
  The kernel's result is the network of its arguments.

  The buffer contents at the nine segment boundaries of @main are a fold from the launch memory, `W0 … W9`. Walking the
  result buffer back through that fold: the last region leaves the bias-and-log-softmax stage of the second aggregation
  and the second bias row; the stretch before it builds that aggregation from the third region's product, the edge lists
  and the edge weights; the third region's product is of the second region's output and `W₂`; the second region leaves
  `max(a + b, 0)` of the first aggregation and the first bias row; the stretch before it builds the first aggregation from
  the first region's product `x · W₁`; and the three stretches at the start build the edge lists and the weights from the
  edge array. A buffer that a segment does not write keeps its contents across it. Composed, this is
  `Cert.Gcn.network` of the six arguments. (The kernel lays a bias out as a row by a reshape, the network by a broadcast
  along axis 1: the same row.)
-/
import proofs.«127188_j1589137899719_1_alg».proof.Proof.Gen.KernelIdeal.Frame
import proofs.«127188_j1589137899719_1_alg».proof.Proof.Spec
import proofs.«127188_j1589137899719_1_alg».proof.Proof.HostStages
import proofs.«127188_j1589137899719_1_alg».proof.Proof.BiasRelu
import proofs.«127188_j1589137899719_1_alg».proof.Proof.Transform1
import proofs.«127188_j1589137899719_1_alg».proof.Proof.Transform2
import proofs.«127188_j1589137899719_1_alg».proof.Proof.LogSoftmax
import proofs.«127188_j1589137899719_1_alg».proof.Proof.LibRow

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Names for the stages of the network at the launch memory's arguments -/

/-- The two edge lists and the edge weights of the launched edge array. -/
abbrev src := Cert.Gcn.sources (F := Ideal) (m ((c : Thread nD τ).loc main_arg1))
abbrev tgt := Cert.Gcn.targets (F := Ideal) (m ((c : Thread nD τ).loc main_arg1))
abbrev wgt := Cert.Gcn.edgeWeight (F := Ideal) (src m c) (tgt m c)
/-- The first layer's aggregation and its output, the second layer's aggregation. -/
abbrev agg1 := Cert.Gcn.aggregate5 (F := Ideal)
  (Cert.Gcn.transform1 (F := Ideal) (m ((c : Thread nD τ).loc main_arg0)) (m ((c : Thread nD τ).loc main_arg2))) (src m c) (tgt m c) (wgt m c)
abbrev hid := Cert.Gcn.biasRelu (F := Ideal) (agg1 m c)
  (broadcastInDim Cert.ReferenceIdeal.S1x5 ![1] Cert.ReferenceIdeal.Facts₀.bcast_S5_S1x5_1 (m ((c : Thread nD τ).loc main_arg3)))
abbrev agg2 := Cert.Gcn.aggregate16 (F := Ideal)
  (Cert.Gcn.transform2 (F := Ideal) (hid m c) (m ((c : Thread nD τ).loc main_arg4))) (src m c) (tgt m c) (wgt m c)

/-! ## At the first region's entry -/

theorem entry1_sources : W3 m ρ c (Proc.devRef .tc main_v5) = src m c := HostStages.sources_beforeFirst (W0 m ρ c)
theorem entry1_targets : W3 m ρ c (Proc.devRef .tc main_v6) = tgt m c := HostStages.targets_beforeFirst (W0 m ρ c)
theorem entry1_weight : W3 m ρ c (Proc.devRef .tc main_v29) = wgt m c := HostStages.weight_beforeFirst (W0 m ρ c)
theorem entry1_arg0 : W3 m ρ c (Proc.devRef .tc main_arg0) = m ((c : Thread nD τ).loc main_arg0) := (HostStages.args_beforeFirst (W0 m ρ c)).1
theorem entry1_arg2 : W3 m ρ c (Proc.devRef .tc main_arg2) = m ((c : Thread nD τ).loc main_arg2) := (HostStages.args_beforeFirst (W0 m ρ c)).2.1
theorem entry1_arg3 : W3 m ρ c (Proc.devRef .tc main_arg3) = m ((c : Thread nD τ).loc main_arg3) := (HostStages.args_beforeFirst (W0 m ρ c)).2.2.1
theorem entry1_arg4 : W3 m ρ c (Proc.devRef .tc main_arg4) = m ((c : Thread nD τ).loc main_arg4) := (HostStages.args_beforeFirst (W0 m ρ c)).2.2.2.1
theorem entry1_arg5 : W3 m ρ c (Proc.devRef .tc main_arg5) = m ((c : Thread nD τ).loc main_arg5) := (HostStages.args_beforeFirst (W0 m ρ c)).2.2.2.2

/-! ## At the first region's exit -/

theorem exit1_product : W4 m ρ c (Proc.devRef .tc main_v30)
    = Cert.Gcn.transform1 (F := Ideal) (m ((c : Thread nD τ).loc main_arg0)) (m ((c : Thread nD τ).loc main_arg2)) := by
  refine (W4_arr m ρ c 2).trans ((Transform1Region.final (V3 m ρ) c).trans ?_)
  show Cert.Gcn.transform1 (F := Ideal) (W3 m ρ c (Proc.devRef .tc main_arg0)) (W3 m ρ c (Proc.devRef .tc main_arg2)) = _
  rw [entry1_arg0, entry1_arg2]

theorem exit1_sources : W4 m ρ c (Proc.devRef .tc main_v5) = src m c := (W4_of_ne m ρ c main_v5 (by decide)).trans (entry1_sources m ρ c)
theorem exit1_targets : W4 m ρ c (Proc.devRef .tc main_v6) = tgt m c := (W4_of_ne m ρ c main_v6 (by decide)).trans (entry1_targets m ρ c)
theorem exit1_weight : W4 m ρ c (Proc.devRef .tc main_v29) = wgt m c := (W4_of_ne m ρ c main_v29 (by decide)).trans (entry1_weight m ρ c)
theorem exit1_arg3 : W4 m ρ c (Proc.devRef .tc main_arg3) = m ((c : Thread nD τ).loc main_arg3) := (W4_of_ne m ρ c main_arg3 (by decide)).trans (entry1_arg3 m ρ c)
theorem exit1_arg4 : W4 m ρ c (Proc.devRef .tc main_arg4) = m ((c : Thread nD τ).loc main_arg4) := (W4_of_ne m ρ c main_arg4 (by decide)).trans (entry1_arg4 m ρ c)
theorem exit1_arg5 : W4 m ρ c (Proc.devRef .tc main_arg5) = m ((c : Thread nD τ).loc main_arg5) := (W4_of_ne m ρ c main_arg5 (by decide)).trans (entry1_arg5 m ρ c)

/-! ## At the second region's entry -/

theorem entry2_aggregate : W5 m ρ c (Proc.devRef .tc main_v43) = agg1 m c := by
  refine (HostStages.aggregate_afterFirst (W4 m ρ c)).trans ?_
  rw [exit1_product, exit1_sources, exit1_targets, exit1_weight]

theorem entry2_biasRow : W5 m ρ c (Proc.devRef .tc main_v44)
    = broadcastInDim Cert.ReferenceIdeal.S1x5 ![1] Cert.ReferenceIdeal.Facts₀.bcast_S5_S1x5_1 (m ((c : Thread nD τ).loc main_arg3)) := by
  refine (HostStages.biasRow_afterFirst (W4 m ρ c)).trans ?_
  rw [exit1_arg3]
  exact Cert.LibRow.shapeCast_row_eq_broadcastInDim _ _ _

theorem entry2_sources : W5 m ρ c (Proc.devRef .tc main_v5) = src m c := (HostStages.kept_afterFirst (W4 m ρ c)).1.trans (exit1_sources m ρ c)
theorem entry2_targets : W5 m ρ c (Proc.devRef .tc main_v6) = tgt m c := (HostStages.kept_afterFirst (W4 m ρ c)).2.1.trans (exit1_targets m ρ c)
theorem entry2_weight : W5 m ρ c (Proc.devRef .tc main_v29) = wgt m c := (HostStages.kept_afterFirst (W4 m ρ c)).2.2.1.trans (exit1_weight m ρ c)
theorem entry2_arg4 : W5 m ρ c (Proc.devRef .tc main_arg4) = m ((c : Thread nD τ).loc main_arg4) := (HostStages.kept_afterFirst (W4 m ρ c)).2.2.2.1.trans (exit1_arg4 m ρ c)
theorem entry2_arg5 : W5 m ρ c (Proc.devRef .tc main_arg5) = m ((c : Thread nD τ).loc main_arg5) := (HostStages.kept_afterFirst (W4 m ρ c)).2.2.2.2.trans (exit1_arg5 m ρ c)

/-! ## At the second region's exit (the third region's entry) -/

theorem exit2_hidden : W6 m ρ c (Proc.devRef .tc main_v45) = hid m c := by
  refine (W6_arr m ρ c 2).trans ((BiasReluRegion.final (V5 m ρ) c).trans ?_)
  show Cert.Gcn.biasRelu (F := Ideal) (W5 m ρ c (Proc.devRef .tc main_v43)) (W5 m ρ c (Proc.devRef .tc main_v44)) = _
  rw [entry2_aggregate, entry2_biasRow]

theorem exit2_sources : W6 m ρ c (Proc.devRef .tc main_v5) = src m c := (W6_of_ne m ρ c main_v5 (by decide)).trans (entry2_sources m ρ c)
theorem exit2_targets : W6 m ρ c (Proc.devRef .tc main_v6) = tgt m c := (W6_of_ne m ρ c main_v6 (by decide)).trans (entry2_targets m ρ c)
theorem exit2_weight : W6 m ρ c (Proc.devRef .tc main_v29) = wgt m c := (W6_of_ne m ρ c main_v29 (by decide)).trans (entry2_weight m ρ c)
theorem exit2_arg4 : W6 m ρ c (Proc.devRef .tc main_arg4) = m ((c : Thread nD τ).loc main_arg4) := (W6_of_ne m ρ c main_arg4 (by decide)).trans (entry2_arg4 m ρ c)
theorem exit2_arg5 : W6 m ρ c (Proc.devRef .tc main_arg5) = m ((c : Thread nD τ).loc main_arg5) := (W6_of_ne m ρ c main_arg5 (by decide)).trans (entry2_arg5 m ρ c)

/-! ## At the third region's exit -/

theorem exit3_product : W7 m ρ c (Proc.devRef .tc main_v46)
    = Cert.Gcn.transform2 (F := Ideal) (hid m c) (m ((c : Thread nD τ).loc main_arg4)) := by
  refine (W7_arr m ρ c 2).trans ((Transform2Region.final (V6 m ρ) c).trans ?_)
  show Cert.Gcn.transform2 (F := Ideal) (W6 m ρ c (Proc.devRef .tc main_v45)) (W6 m ρ c (Proc.devRef .tc main_arg4)) = _
  rw [exit2_hidden, exit2_arg4]

theorem exit3_sources : W7 m ρ c (Proc.devRef .tc main_v5) = src m c := (W7_of_ne m ρ c main_v5 (by decide)).trans (exit2_sources m ρ c)
theorem exit3_targets : W7 m ρ c (Proc.devRef .tc main_v6) = tgt m c := (W7_of_ne m ρ c main_v6 (by decide)).trans (exit2_targets m ρ c)
theorem exit3_weight : W7 m ρ c (Proc.devRef .tc main_v29) = wgt m c := (W7_of_ne m ρ c main_v29 (by decide)).trans (exit2_weight m ρ c)
theorem exit3_arg5 : W7 m ρ c (Proc.devRef .tc main_arg5) = m ((c : Thread nD τ).loc main_arg5) := (W7_of_ne m ρ c main_arg5 (by decide)).trans (exit2_arg5 m ρ c)

/-! ## At the last region's entry, and its exit -/

theorem entry4_aggregate : W8 m ρ c (Proc.devRef .tc main_v59) = agg2 m c := by
  refine (HostStages.aggregate_beforeLast (W7 m ρ c)).trans ?_
  rw [exit3_product, exit3_sources, exit3_targets, exit3_weight]

theorem entry4_biasRow : W8 m ρ c (Proc.devRef .tc main_v60)
    = broadcastInDim Cert.ReferenceIdeal.S1x16 ![1] Cert.ReferenceIdeal.Facts₀.bcast_S16_S1x16_1 (m ((c : Thread nD τ).loc main_arg5)) := by
  refine (HostStages.biasRow_beforeLast (W7 m ρ c)).trans ?_
  rw [exit3_arg5]
  exact Cert.LibRow.shapeCast_row_eq_broadcastInDim _ _ _

/-- The result buffer after the last region: the network of the six launched arguments. -/
theorem result_eq : W9 m ρ c (Proc.devRef .tc main_v61)
    = Cert.Gcn.network (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W9_arr m ρ c 2).trans ((LogSoftmaxRegion.final (V8 m ρ) c).trans ?_)
  show Cert.Gcn.biasLogSoftmax (F := Ideal) (W8 m ρ c (Proc.devRef .tc main_v59)) (W8 m ρ c (Proc.devRef .tc main_v60)) = _
  rw [entry4_aggregate, entry4_biasRow]
  rfl

end Cert.KernelIdeal.KernelValue

end
-- ==== Proof.RefValue.lean ====
/-
  The reference's run, read stage by stage.

  The reference's @main is a straight line of 138 host operations: 40 that build the edge lists and the edge weights,
  23 for the first layer (transform, gather, scale, scatter-add, bias, `max(·, 0)`), 40 that build the edge lists and the
  weights a second time, 20 for the second layer up to its biased sums, 8 that subtract each row's maximum and 7 that
  subtract the logarithm of the row's sum of exponentials. The contents
  after the line are the fold of the six parts one after the other; each part is read at the few buffers the next part
  uses, from an arbitrary start, and is one of the stages of `Cert.Gcn`; their composition is `Cert.Gcn.network` of the
  six arguments.
-/
import proofs.«127188_j1589137899719_1_alg».proof.Proof.RefRun
import proofs.«127188_j1589137899719_1_alg».proof.Proof.Spec
import Idealize.ShloMosaic.Lib.StableHlo.Run
import Idealize.ShloMosaic.Lib.Pipeline.Frame

set_option maxRecDepth 16384

noncomputable section

namespace Cert.ReferenceIdeal.RefValue

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-! ## The six parts of the line -/

abbrev firstNorm : List (HloOp τ sig (Elt F)) := (ops (F := F)).take 40
abbrev firstLayer : List (HloOp τ sig (Elt F)) := ((ops (F := F)).drop 40).take 23
abbrev secondNorm : List (HloOp τ sig (Elt F)) := ((ops (F := F)).drop 63).take 40
abbrev secondLayer : List (HloOp τ sig (Elt F)) := ((ops (F := F)).drop 103).take 20
abbrev rowShift : List (HloOp τ sig (Elt F)) := ((ops (F := F)).drop 123).take 8
abbrev rowLogSum : List (HloOp τ sig (Elt F)) := (ops (F := F)).drop 131

theorem ops_parts : (ops (F := F)) = firstNorm ++ (firstLayer ++ (secondNorm ++ (secondLayer ++ (rowShift ++ rowLogSum)))) := rfl

/-- Contents carried to a buffer's own type and back are unchanged (a called function's values are read and written
    through such a pair of transports, which cancel between one operation and the next). -/
theorem ofBuf_toBuf {T : BufTy} (x : TRef sig T) (v : T.Contents (Elt F)) : x.ofBuf (x.toBuf v) = v := by
  obtain ⟨r, h, _, _⟩ := x
  subst h
  rfl

variable (W : Valuation τ sig (Elt F))

/-! ## The first normalisation -/

theorem firstNorm_sources : after firstNorm W (Proc.devRef .tc main_v5) = Cert.Gcn.sources (F := F) (W (Proc.devRef .tc main_arg1)) := by
  delta firstNorm
  simp only [ops]
  simp only [List.drop_succ_cons, List.drop_zero, List.take_succ_cons, List.take_zero]
  after_results_simp <;> rfl

theorem firstNorm_targets : after firstNorm W (Proc.devRef .tc main_v6) = Cert.Gcn.targets (F := F) (W (Proc.devRef .tc main_arg1)) := by
  delta firstNorm
  simp only [ops]
  simp only [List.drop_succ_cons, List.drop_zero, List.take_succ_cons, List.take_zero]
  after_results_simp <;> rfl

theorem firstNorm_weight : after firstNorm W (Proc.devRef .tc main_v29)
    = Cert.Gcn.edgeWeight (F := F) (Cert.Gcn.sources (F := F) (W (Proc.devRef .tc main_arg1))) (Cert.Gcn.targets (F := F) (W (Proc.devRef .tc main_arg1))) := by
  delta firstNorm
  simp only [ops]
  simp only [List.drop_succ_cons, List.drop_zero, List.take_succ_cons, List.take_zero]
  after_results_simp <;> rfl

/-- The part writes none of the six arguments. -/
theorem firstNorm_args :
    after firstNorm W (Proc.devRef .tc main_arg0) = W (Proc.devRef .tc main_arg0)
    ∧ after firstNorm W (Proc.devRef .tc main_arg1) = W (Proc.devRef .tc main_arg1)
    ∧ after firstNorm W (Proc.devRef .tc main_arg2) = W (Proc.devRef .tc main_arg2)
    ∧ after firstNorm W (Proc.devRef .tc main_arg3) = W (Proc.devRef .tc main_arg3)
    ∧ after firstNorm W (Proc.devRef .tc main_arg4) = W (Proc.devRef .tc main_arg4)
    ∧ after firstNorm W (Proc.devRef .tc main_arg5) = W (Proc.devRef .tc main_arg5) := by
  refine ⟨?_, ?_, ?_, ?_, ?_, ?_⟩ <;> (delta firstNorm; simp only [ops]; simp only [List.drop_succ_cons, List.drop_zero, List.take_succ_cons, List.take_zero]) <;> after_results_simp <;> rfl

/-! ## The first layer -/

theorem firstLayer_hidden : after firstLayer W (Proc.devRef .tc main_v47)
    = Cert.Gcn.biasRelu (F := F)
        (Cert.Gcn.aggregate5 (F := F) (Cert.Gcn.transform1 (F := F) (W (Proc.devRef .tc main_arg0)) (W (Proc.devRef .tc main_arg2)))
          (W (Proc.devRef .tc main_v5)) (W (Proc.devRef .tc main_v6)) (W (Proc.devRef .tc main_v29)))
        (broadcastInDim S1x5 ![1] bcast_S5_S1x5_1 (W (Proc.devRef .tc main_arg3))) := by
  delta firstLayer
  simp only [ops]
  simp only [List.drop_succ_cons, List.drop_zero, List.take_succ_cons, List.take_zero]
  after_results_simp <;> rfl

/-- The part writes none of the six arguments. -/
theorem firstLayer_args :
    after firstLayer W (Proc.devRef .tc main_arg0) = W (Proc.devRef .tc main_arg0)
    ∧ after firstLayer W (Proc.devRef .tc main_arg1) = W (Proc.devRef .tc main_arg1)
    ∧ after firstLayer W (Proc.devRef .tc main_arg2) = W (Proc.devRef .tc main_arg2)
    ∧ after firstLayer W (Proc.devRef .tc main_arg3) = W (Proc.devRef .tc main_arg3)
    ∧ after firstLayer W (Proc.devRef .tc main_arg4) = W (Proc.devRef .tc main_arg4)
    ∧ after firstLayer W (Proc.devRef .tc main_arg5) = W (Proc.devRef .tc main_arg5) := by
  refine ⟨?_, ?_, ?_, ?_, ?_, ?_⟩ <;> (delta firstLayer; simp only [ops]; simp only [List.drop_succ_cons, List.drop_zero, List.take_succ_cons, List.take_zero]) <;> after_results_simp <;> rfl

/-! ## The second normalisation -/

theorem secondNorm_sources : after secondNorm W (Proc.devRef .tc main_v53) = Cert.Gcn.sources (F := F) (W (Proc.devRef .tc main_arg1)) := by
  delta secondNorm
  simp only [ops]
  simp only [List.drop_succ_cons, List.drop_zero, List.take_succ_cons, List.take_zero]
  after_results_simp <;> rfl

theorem secondNorm_targets : after secondNorm W (Proc.devRef .tc main_v54) = Cert.Gcn.targets (F := F) (W (Proc.devRef .tc main_arg1)) := by
  delta secondNorm
  simp only [ops]
  simp only [List.drop_succ_cons, List.drop_zero, List.take_succ_cons, List.take_zero]
  after_results_simp <;> rfl

theorem secondNorm_weight : after secondNorm W (Proc.devRef .tc main_v77)
    = Cert.Gcn.edgeWeight (F := F) (Cert.Gcn.sources (F := F) (W (Proc.devRef .tc main_arg1))) (Cert.Gcn.targets (F := F) (W (Proc.devRef .tc main_arg1))) := by
  delta secondNorm
  simp only [ops]
  simp only [List.drop_succ_cons, List.drop_zero, List.take_succ_cons, List.take_zero]
  after_results_simp <;> rfl

/-- The part keeps the hidden features and the six arguments. -/
theorem secondNorm_kept :
    after secondNorm W (Proc.devRef .tc main_v47) = W (Proc.devRef .tc main_v47)
    ∧ after secondNorm W (Proc.devRef .tc main_arg0) = W (Proc.devRef .tc main_arg0)
    ∧ after secondNorm W (Proc.devRef .tc main_arg1) = W (Proc.devRef .tc main_arg1)
    ∧ after secondNorm W (Proc.devRef .tc main_arg2) = W (Proc.devRef .tc main_arg2)
    ∧ after secondNorm W (Proc.devRef .tc main_arg3) = W (Proc.devRef .tc main_arg3)
    ∧ after secondNorm W (Proc.devRef .tc main_arg4) = W (Proc.devRef .tc main_arg4)
    ∧ after secondNorm W (Proc.devRef .tc main_arg5) = W (Proc.devRef .tc main_arg5) := by
  refine ⟨?_, ?_, ?_, ?_, ?_, ?_, ?_⟩ <;> (delta secondNorm; simp only [ops]; simp only [List.drop_succ_cons, List.drop_zero, List.take_succ_cons, List.take_zero]) <;> after_results_simp <;> rfl

/-! ## The second layer up to its biased sums -/

theorem secondLayer_logits : after secondLayer W (Proc.devRef .tc main_v94)
    = addf (Cert.Gcn.aggregate16 (F := F) (Cert.Gcn.transform2 (F := F) (W (Proc.devRef .tc main_v47)) (W (Proc.devRef .tc main_arg4)))
          (W (Proc.devRef .tc main_v53)) (W (Proc.devRef .tc main_v54)) (W (Proc.devRef .tc main_v77)))
        (broadcastInDim S100000x16 ![0, 1] bcast_S1x16_S100000x16_0_1 (broadcastInDim S1x16 ![1] bcast_S16_S1x16_1 (W (Proc.devRef .tc main_arg5)))) := by
  delta secondLayer
  simp only [ops]
  simp only [List.drop_succ_cons, List.drop_zero, List.take_succ_cons, List.take_zero]
  after_results_simp <;> rfl

/-- The part writes none of the six arguments. -/
theorem secondLayer_args :
    after secondLayer W (Proc.devRef .tc main_arg0) = W (Proc.devRef .tc main_arg0)
    ∧ after secondLayer W (Proc.devRef .tc main_arg1) = W (Proc.devRef .tc main_arg1)
    ∧ after secondLayer W (Proc.devRef .tc main_arg2) = W (Proc.devRef .tc main_arg2)
    ∧ after secondLayer W (Proc.devRef .tc main_arg3) = W (Proc.devRef .tc main_arg3)
    ∧ after secondLayer W (Proc.devRef .tc main_arg4) = W (Proc.devRef .tc main_arg4)
    ∧ after secondLayer W (Proc.devRef .tc main_arg5) = W (Proc.devRef .tc main_arg5) := by
  refine ⟨?_, ?_, ?_, ?_, ?_, ?_⟩ <;> (delta secondLayer; simp only [ops]; simp only [List.drop_succ_cons, List.drop_zero, List.take_succ_cons, List.take_zero]) <;> after_results_simp <;> rfl

/-! ## The row-wise log-softmax, in two steps -/

theorem rowShift_shifted : after rowShift W (Proc.devRef .tc main_call3_v5) = Cert.Gcn.shifted (F := F) (W (Proc.devRef .tc main_v94)) := by
  delta rowShift
  simp only [ops]
  simp only [List.drop_succ_cons, List.drop_zero, List.take_succ_cons, List.take_zero]
  after_results_simp
  simp only [ofBuf_toBuf]
  rfl

/-- The part writes none of the six arguments. -/
theorem rowShift_args :
    after rowShift W (Proc.devRef .tc main_arg0) = W (Proc.devRef .tc main_arg0)
    ∧ after rowShift W (Proc.devRef .tc main_arg1) = W (Proc.devRef .tc main_arg1)
    ∧ after rowShift W (Proc.devRef .tc main_arg2) = W (Proc.devRef .tc main_arg2)
    ∧ after rowShift W (Proc.devRef .tc main_arg3) = W (Proc.devRef .tc main_arg3)
    ∧ after rowShift W (Proc.devRef .tc main_arg4) = W (Proc.devRef .tc main_arg4)
    ∧ after rowShift W (Proc.devRef .tc main_arg5) = W (Proc.devRef .tc main_arg5) := by
  refine ⟨?_, ?_, ?_, ?_, ?_, ?_⟩ <;> (delta rowShift; simp only [ops]; simp only [List.drop_succ_cons, List.drop_zero, List.take_succ_cons, List.take_zero]) <;> after_results_simp <;> rfl

theorem rowLogSum_result : after rowLogSum W (Proc.devRef .tc main_v95)
    = subf (W (Proc.devRef .tc main_call3_v5)) (broadcastInDim S100000x16 ![0, 1] bcast_S100000x1_S100000x16_0_1
        (Host.log (broadcastInDim S100000x1 ![0] bcast_S100000_S100000x1_0
          (Host.reduceAdd (Host.exp (W (Proc.devRef .tc main_call3_v5))) (constant S_ .f32 0x00000000#32) reducesTo_S100000x16_S100000_d1 h_S_)))) := by
  delta rowLogSum
  simp only [ops]
  simp only [List.drop_succ_cons, List.drop_zero, List.take_succ_cons, List.take_zero]
  after_results_simp
  simp only [ofBuf_toBuf]
  rfl

/-- The part writes none of the six arguments. -/
theorem rowLogSum_args :
    after rowLogSum W (Proc.devRef .tc main_arg0) = W (Proc.devRef .tc main_arg0)
    ∧ after rowLogSum W (Proc.devRef .tc main_arg1) = W (Proc.devRef .tc main_arg1)
    ∧ after rowLogSum W (Proc.devRef .tc main_arg2) = W (Proc.devRef .tc main_arg2)
    ∧ after rowLogSum W (Proc.devRef .tc main_arg3) = W (Proc.devRef .tc main_arg3)
    ∧ after rowLogSum W (Proc.devRef .tc main_arg4) = W (Proc.devRef .tc main_arg4)
    ∧ after rowLogSum W (Proc.devRef .tc main_arg5) = W (Proc.devRef .tc main_arg5) := by
  refine ⟨?_, ?_, ?_, ?_, ?_, ?_⟩ <;> (delta rowLogSum; simp only [ops]; simp only [List.drop_succ_cons, List.drop_zero, List.take_succ_cons, List.take_zero]) <;> after_results_simp <;> rfl

/-! ## The whole line -/

/-- After the whole line the result buffer holds the network of the six arguments' start contents. -/
theorem result_eq : after (ops (F := F)) W (Proc.devRef .tc main_v95)
    = Cert.Gcn.network (F := F) (W (Proc.devRef .tc main_arg0)) (W (Proc.devRef .tc main_arg1)) (W (Proc.devRef .tc main_arg2)) (W (Proc.devRef .tc main_arg3))
        (W (Proc.devRef .tc main_arg4)) (W (Proc.devRef .tc main_arg5)) := by
  rw [ops_parts, StableHlo.after_append, StableHlo.after_append, StableHlo.after_append, StableHlo.after_append, StableHlo.after_append]
  obtain ⟨a0, a1, a2, a3, a4, a5⟩ := firstNorm_args W
  obtain ⟨-, b1, -, -, b4, b5⟩ := firstLayer_args (after firstNorm W)
  obtain ⟨ch, -, -, -, -, c4, c5⟩ := secondNorm_kept (after firstLayer (after firstNorm W))
  rw [rowLogSum_result, rowShift_shifted, secondLayer_logits, ch, c4, c5, secondNorm_sources, secondNorm_targets, secondNorm_weight,
    firstLayer_hidden, b4, b5, b1, firstNorm_sources, firstNorm_targets, firstNorm_weight, a0, a1, a2, a3, a4, a5]
  rfl

/-- The whole line writes none of the six arguments. -/
theorem args_kept :
    after (ops (F := F)) W (Proc.devRef .tc main_arg0) = W (Proc.devRef .tc main_arg0)
    ∧ after (ops (F := F)) W (Proc.devRef .tc main_arg1) = W (Proc.devRef .tc main_arg1)
    ∧ after (ops (F := F)) W (Proc.devRef .tc main_arg2) = W (Proc.devRef .tc main_arg2)
    ∧ after (ops (F := F)) W (Proc.devRef .tc main_arg3) = W (Proc.devRef .tc main_arg3)
    ∧ after (ops (F := F)) W (Proc.devRef .tc main_arg4) = W (Proc.devRef .tc main_arg4)
    ∧ after (ops (F := F)) W (Proc.devRef .tc main_arg5) = W (Proc.devRef .tc main_arg5) := by
  rw [ops_parts, StableHlo.after_append, StableHlo.after_append, StableHlo.after_append, StableHlo.after_append, StableHlo.after_append]
  obtain ⟨a0, a1, a2, a3, a4, a5⟩ := firstNorm_args W
  obtain ⟨b0, b1, b2, b3, b4, b5⟩ := firstLayer_args (after firstNorm W)
  obtain ⟨-, c0, c1, c2, c3, c4, c5⟩ := secondNorm_kept (after firstLayer (after firstNorm W))
  obtain ⟨d0, d1, d2, d3, d4, d5⟩ := secondLayer_args (after secondNorm (after firstLayer (after firstNorm W)))
  obtain ⟨e0, e1, e2, e3, e4, e5⟩ := rowShift_args (after secondLayer (after secondNorm (after firstLayer (after firstNorm W))))
  obtain ⟨f0, f1, f2, f3, f4, f5⟩ := rowLogSum_args (after rowShift (after secondLayer (after secondNorm (after firstLayer (after firstNorm W)))))
  exact ⟨by rw [f0, e0, d0, c0, b0, a0], by rw [f1, e1, d1, c1, b1, a1], by rw [f2, e2, d2, c2, b2, a2], by rw [f3, e3, d3, c3, b3, a3],
    by rw [f4, e4, d4, c4, b4, a4], by rw [f5, e5, d5, c5, b5, a5]⟩

/-! ## The run -/

/-- From any memory with zero counters every weakly fair execution of the reference's @main terminates with the result
    buffer at the network of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95)
          = Cert.Gcn.network (F := F) (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v95).trans (result_eq _),
       (h c main_arg0).trans (args_kept _).1,
       (h c main_arg1).trans (args_kept _).2.1,
       (h c main_arg2).trans (args_kept _).2.2.1,
       (h c main_arg3).trans (args_kept _).2.2.2.1,
       (h c main_arg4).trans (args_kept _).2.2.2.2.1,
       (h c main_arg5).trans (args_kept _).2.2.2.2.2⟩)
    (run_seq scopedRefs_eq scopedSems_eq defs main (fun _ => ops) main_eq (fun _ => ops_sub) m ρ)

end Cert.ReferenceIdeal.RefValue

end
-- ==== Proof.lean ====
/-
  A two-layer graph convolution with a row-wise log-softmax: the kernel against its reference.

  Both programs compute, from node features `x`, an edge array and two weight/bias pairs,
  `logsoftmax(Â · max(Â · x · W₁ + b₁, 0) · W₂ + b₂)` where `Â` aggregates along the edges (loops added) with weights
  `deg(src)^(-1/2) · deg(tgt)^(-1/2)`. The reference is one straight line of host operations. The kernel computes the edge
  lists, the weights and the two aggregations by the same host operations, and the four dense stages — `x · W₁`,
  `max(a + b₁, 0)`, `h · W₂`, and the bias with the row-wise log-softmax — in four grid regions of ten row blocks each.

  Over the extended reals the two results are the same function `Cert.Gcn.network` of the six arguments:
  each region leaves the corresponding whole-array stage (its blocks are restrictions of the stage, and tile the array);
  a matrix product into a zero accumulator is the host's product; the narrowing to 16-bit floats in front of a product
  is the identity; a bias reshaped to a row is the bias broadcast to a row; and the reference's extra `max(-∞, ·)` after its
  row maximum changes nothing. No step needs the inputs to be finite. The idealization rewrote nothing, so `preserves`
  is trivial; the two kernels' frames are the generated ones, the reference's frame is its run with the result dropped.
-/
import proofs.«127188_j1589137899719_1_alg».proof.Defs
import proofs.«127188_j1589137899719_1_alg».proof.Proof.Gen.Kernel
import proofs.«127188_j1589137899719_1_alg».proof.Proof.Gen.Kernel.Skeleton
import proofs.«127188_j1589137899719_1_alg».proof.Proof.Gen.Kernel.Launch
import proofs.«127188_j1589137899719_1_alg».proof.Proof.Gen.Kernel.Points
import proofs.«127188_j1589137899719_1_alg».proof.Proof.Gen.Kernel.Frame
import proofs.«127188_j1589137899719_1_alg».proof.Proof.Gen.KernelIdeal
import proofs.«127188_j1589137899719_1_alg».proof.Proof.Gen.KernelIdeal.Skeleton
import proofs.«127188_j1589137899719_1_alg».proof.Proof.Gen.KernelIdeal.Launch
import proofs.«127188_j1589137899719_1_alg».proof.Proof.Gen.KernelIdeal.Points
import proofs.«127188_j1589137899719_1_alg».proof.Proof.Gen.KernelIdeal.Frame
import proofs.«127188_j1589137899719_1_alg».proof.Proof.Gen.ReferenceIdeal
import proofs.«127188_j1589137899719_1_alg».proof.Proof.Gen.Pre_finite_inputs
import proofs.«127188_j1589137899719_1_alg».proof.Proof.KernelRun
import proofs.«127188_j1589137899719_1_alg».proof.Proof.KernelValue
import proofs.«127188_j1589137899719_1_alg».proof.Proof.RefValue
import Idealize.ShloMosaic.Adequacy
import Idealize.ShloMosaic.Init

noncomputable section

namespace Cert.Proof

open Idealize.ShloMosaic Idealize.ShloMosaic.TcCoe Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.run (F := Ideal) m ρ)

/-! ## The idealization rewrote nothing -/

theorem preserves : Cert.preserves_Kernel_KernelIdeal := trivial

/-! ## Equal results -/

/-- From memories agreeing on the six arguments both programs end with the result at the network of the arguments. -/
theorem algebraic : Cert.algebraic_KernelIdeal_ReferenceIdeal := by
  intro m ρ m' ρ' _ hagree
  refine ⟨fun c => Cert.Gcn.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result_eq m ρ c), (h c).2⟩)
      (Cert.KernelIdeal.NamedRun.run_named (F := Ideal) m ρ)
  · refine (θ_run Cert.ReferenceIdeal.defs _ _).mono (fun _ h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
